-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S4095x16 : Shape := ⟨2, ![4095, 16]⟩
abbrev S2x2048x2048 : Shape := ⟨3, ![2, 2048, 2048]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4095x16 : S_.BroadcastsInDim S4095x16 (![] : Fin 0 → Fin S4095x16.rank)
  reducesTo_S4095x16_S_d0_1 : S4095x16.ReducesTo [0, 1] S_

variable [Facts]

def fn_part1 {F : FTy → Type} [FloatOps F] (main_arg4 : FVec F S1024 .f32) (main_arg5 : FVec F S4095x16 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4095x16 .f32 := Host.absf main_arg5
  let main_cst_8 : FVec F S_ .f32 := constant S_ .f32 0x7F800000#32
  let main_v25 : FVec F S4095x16 .f32 := broadcastInDim S4095x16 ![] bcast_S_S4095x16 main_cst_8
  let main_v26 : IVec S4095x16 1 := cmpf .olt main_v24 main_v25
  let main_c_9 : IVec S_ 1 := constantI S_ 1 1#1
  let main_v27 : IVec S_ 1 := (fun x v => Host.reduce IntOp.andi x v reducesTo_S4095x16_S_d0_1 h_S_) main_v26 main_c_9
  let main_v28 : IVec S_ 1 := andi main_v23 main_v27
  main_v28

def fn {F : FTy → Type} [FloatOps F] (main_arg0 : FVec F S2x2048x1024 .f32) (main_arg1 : FVec F S1024x4096 .f32) (main_arg2 : FVec F S4096 .f32) (main_arg3 : FVec F S1024x1024 .f32) (main_arg4 : FVec F S1024 .f32) (main_arg5 : FVec F S4095x16 .f32) (main_arg6 : IVec S2x2048x2048 1) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S4095x16 : Shape := ⟨2, ![4095, 16]⟩
abbrev S2x2048x2048 : Shape := ⟨3, ![2, 2048, 2048]⟩
abbrev S4096x1024 : Shape := ⟨2, ![4096, 1024]⟩
abbrev S1x4096 : Shape := ⟨2, ![1, 4096]⟩
abbrev S4096x4096 : Shape := ⟨2, ![4096, 4096]⟩
abbrev S512x1024 : Shape := ⟨2, ![512, 1024]⟩
abbrev S1x1024 : Shape := ⟨2, ![1, 1024]⟩
abbrev S2x2048x4096 : Shape := ⟨3, ![2, 2048, 4096]⟩
abbrev S2x2048x16x64 : Shape := ⟨4, ![2, 2048, 16, 64]⟩
abbrev S2x16x2048x64 : Shape := ⟨4, ![2, 16, 2048, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S2048x2048x16 : Shape := ⟨3, ![2048, 2048, 16]⟩
abbrev S16x2048x2048 : Shape := ⟨3, ![16, 2048, 2048]⟩
abbrev S1x1x256x64 : Shape := ⟨4, ![1, 1, 256, 64]⟩
abbrev S1x1x2048x64 : Shape := ⟨4, ![1, 1, 2048, 64]⟩
abbrev S1x256x2048 : Shape := ⟨3, ![1, 256, 2048]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩

abbrev nBuf : Space → Nat
  | .hbm => 53
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S4096, .f32⟩
  | .hbm, ⟨3, _⟩ => ⟨S1024x1024, .f32⟩
  | .hbm, ⟨4, _⟩ => ⟨S1024, .f32⟩
  | .hbm, ⟨5, _⟩ => ⟨S4095x16, .f32⟩
  | .hbm, ⟨6, _⟩ => ⟨S2x2048x2048, .i1⟩
  | .hbm, ⟨7, _⟩ => ⟨S4096x1024, .f32⟩
  | .hbm, ⟨8, _⟩ => ⟨S4096x1024, .bf16⟩
  | .hbm, ⟨9, _⟩ => ⟨S1024x4096, .bf16⟩
  | .hbm, ⟨10, _⟩ => ⟨S1x4096, .f32⟩
  | .hbm, ⟨11, _⟩ => ⟨S4096x4096, .f32⟩
  | .hbm, ⟨12, _⟩ => ⟨S2x2048x4096, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x16x64, .f32⟩
  | .hbm, ⟨18, _⟩ => ⟨S2x16x2048x64, .f32⟩
  | .hbm, ⟨19, _⟩ => ⟨S2x2048x16x64, .f32⟩
  | .hbm, ⟨20, _⟩ => ⟨S2x16x2048x64, .f32⟩
  | .hbm, ⟨21, _⟩ => ⟨S2x2048x16x64, .f32⟩
  | .hbm, ⟨22, _⟩ => ⟨S2x16x2048x64, .f32⟩
  | .hbm, ⟨23, _⟩ => ⟨S2048, .i32⟩
  | .hbm, ⟨24, _⟩ => ⟨S2048x1, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S_, .i32⟩
  | .hbm, ⟨33, _⟩ => ⟨S2048x2048, .i32⟩
  | .hbm, ⟨34, _⟩ => ⟨S2048x2048, .i1⟩
  | .hbm, ⟨35, _⟩ => ⟨S_, .i32⟩
  | .hbm, ⟨36, _⟩ => ⟨S2048x2048, .i32⟩
  | .hbm, ⟨37, _⟩ => ⟨S2048x2048, .i32⟩
  | .hbm, ⟨38, _⟩ => ⟨S2048x2048, .i32⟩
  | .hbm, ⟨39, _⟩ => ⟨S2048x2048x1, .i32⟩
  | .hbm, ⟨40, _⟩ => ⟨S2048x2048x16, .f32⟩
  | .hbm, ⟨41, _⟩ => ⟨S16x2048x2048, .f32⟩
  | .hbm, ⟨42, _⟩ => ⟨S2x2048x2048, .f32⟩
  | .hbm, ⟨43, _⟩ => ⟨S2x16x2048x64, .f32⟩
  | .hbm, ⟨44, _⟩ => ⟨S2x2048x16x64, .f32⟩
  | .hbm, ⟨45, _⟩ => ⟨S2x2048x1024, .f32⟩
  | .hbm, ⟨46, _⟩ => ⟨S2x2048x1024, .f32⟩
  | .hbm, ⟨47, _⟩ => ⟨S4096x1024, .f32⟩
  | .hbm, ⟨48, _⟩ => ⟨S4096x1024, .bf16⟩
  | .hbm, ⟨49, _⟩ => ⟨S1024x1024, .bf16⟩
  | .hbm, ⟨50, _⟩ => ⟨S1x1024, .f32⟩
  | .hbm, ⟨51, _⟩ => ⟨S4096x1024, .f32⟩
  | .hbm, ⟨52, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1x256x64, .f32⟩
  | .local _ .vmem, ⟨9, _⟩ => ⟨S1x1x256x64, .f32⟩
  | .local _ .vmem, ⟨10, _⟩ => ⟨S1x1x2048x64, .f32⟩
  | .local _ .vmem, ⟨11, _⟩ => ⟨S1x1x2048x64, .f32⟩
  | .local _ .vmem, ⟨12, _⟩ => ⟨S1x1x2048x64, .f32⟩
  | .local _ .vmem, ⟨13, _⟩ => ⟨S1x1x2048x64, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x1x256x64, .f32⟩
  | .local _ .vmem, ⟨19, _⟩ => ⟨S1x1x256x64, .f32⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_c_0 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 16, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x1x256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  bitsLt_bf16_f32 : FTy.bits .bf16 < FTy.bits .f32
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x4096_S2x2048x4096 : S4096x4096.ShapeCasts S2x2048x4096
  slices_S2x2048x4096_S2x2048x1024_0_0_0 : S2x2048x4096.Slices ![0, 0, 0] S2x2048x1024
  slices_S2x2048x4096_S2x2048x1024_0_0_1024 : S2x2048x4096.Slices ![0, 0, 1024] S2x2048x1024
  slices_S2x2048x4096_S2x2048x1024_0_0_2048 : S2x2048x4096.Slices ![0, 0, 2048] S2x2048x1024
  slices_S2x2048x4096_S2x2048x1024_0_0_3072 : S2x2048x4096.Slices ![0, 0, 3072] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  transposes_S2048x2048x16_S16x2048x2048_2_0_1 : S2048x2048x16.Transposes [2, 0, 1] S16x2048x2048
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x64_S1x1x256x64 : S256x64.ShapeCasts S1x1x256x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  shapeCasts_S1024_S1x1024 : S1024.ShapeCasts S1x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  gather_S4095x16_S2048x2048x1_S2048x2048x16_2_0_n_n_0_2_116_wf : GatherDims.WF S4095x16 S2048x2048x1 S2048x2048x16 [2] [0] [] [0] [] 2 ![1, 16]
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .bf16 = 32 ∨ (Rect.block (s := S1024x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x256x64.size a ≤ S2x16x2048x64.size a
  hwx1_0 : ∀ i : grid1.Coords, EltTy.bits .f32 = 32 ∨ (Rect.block (s := S2x16x2048x64) S1x1x256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .f32 = 32 ∨ (Rect.block (s := S2x16x2048x64) S1x1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .f32 = 32 ∨ (Rect.block (s := S2x16x2048x64) S1x1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S16x2048x2048.size a
  hwx1_3 : ∀ i : grid1.Coords, EltTy.bits .f32 = 32 ∨ (Rect.block (s := S16x2048x2048) S1x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x2048.size a ≤ S2x2048x2048.size a
  hwx1_4 : ∀ i : grid1.Coords, EltTy.bits .f32 = 32 ∨ (Rect.block (s := S2x2048x2048) S1x256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x256x64.size a ≤ S2x16x2048x64.size a
  hwx1_5 : ∀ i : grid1.Coords, EltTy.bits .f32 = 32 ∨ (Rect.block (s := S2x16x2048x64) S1x1x256x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def gather_S4095x16_S2048x2048x1_S2048x2048x16_2_0_n_n_0_2_116 : GatherDims S4095x16 S2048x2048x1 S2048x2048x16 where
  offsetDims := [2]
  collapsedSliceDims := [0]
  operandBatchingDims := []
  startIndicesBatchingDims := []
  startIndexMap := [0]
  indexVectorDim := 2
  sliceSizes := ![1, 16]
  wf := gather_S4095x16_S2048x2048x1_S2048x2048x16_2_0_n_n_0_2_116_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1x1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x1x256x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S4095x16 : Shape := ⟨2, ![4095, 16]⟩
abbrev S2x2048x2048 : Shape := ⟨3, ![2, 2048, 2048]⟩
abbrev S2x2048x4096 : Shape := ⟨3, ![2, 2048, 4096]⟩
abbrev S1x1x4096 : Shape := ⟨3, ![1, 1, 4096]⟩
abbrev S_ : Shape := ⟨0, ![]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x16 : Shape := ⟨3, ![2048, 2048, 16]⟩
abbrev S16x2048x2048 : Shape := ⟨3, ![16, 2048, 2048]⟩
abbrev S1x16x2048x2048 : Shape := ⟨4, ![1, 16, 2048, 2048]⟩
abbrev S2x1x2048x2048 : Shape := ⟨4, ![2, 1, 2048, 2048]⟩
abbrev S1x1x1024 : Shape := ⟨3, ![1, 1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S4096, .f32⟩
  | .hbm, ⟨3, _⟩ => ⟨S1024x1024, .f32⟩
  | .hbm, ⟨4, _⟩ => ⟨S1024, .f32⟩
  | .hbm, ⟨5, _⟩ => ⟨S4095x16, .f32⟩
  | .hbm, ⟨6, _⟩ => ⟨S2x2048x2048, .i1⟩
  | .hbm, ⟨7, _⟩ => ⟨S2x2048x4096, .f32⟩
  | .hbm, ⟨8, _⟩ => ⟨S1x1x4096, .f32⟩
  | .hbm, ⟨9, _⟩ => ⟨S2x2048x4096, .f32⟩
  | .hbm, ⟨10, _⟩ => ⟨S2x2048x4096, .f32⟩
  | .hbm, ⟨11, _⟩ => ⟨S2x2048x4096, .f32⟩
  | .hbm, ⟨12, _⟩ => ⟨S2x2048x4096, .f32⟩
  | .hbm, ⟨13, _⟩ => ⟨S_, .f32⟩
  | .hbm, ⟨14, _⟩ => ⟨S2x2048x4096, .f32⟩
  | .hbm, ⟨15, _⟩ => ⟨S2x2048x4096, .f32⟩
  | .hbm, ⟨16, _⟩ => ⟨S_, .f32⟩
  | .hbm, ⟨17, _⟩ => ⟨S2x2048x4096, .f32⟩
  | .hbm, ⟨18, _⟩ => ⟨S2x2048x4096, .f32⟩
  | .hbm, ⟨19, _⟩ => ⟨S2x2048x4096, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x16x64, .f32⟩
  | .hbm, ⟨25, _⟩ => ⟨S2x16x2048x64, .f32⟩
  | .hbm, ⟨26, _⟩ => ⟨S2x2048x16x64, .f32⟩
  | .hbm, ⟨27, _⟩ => ⟨S2x16x2048x64, .f32⟩
  | .hbm, ⟨28, _⟩ => ⟨S2x2048x16x64, .f32⟩
  | .hbm, ⟨29, _⟩ => ⟨S2x16x2048x64, .f32⟩
  | .hbm, ⟨30, _⟩ => ⟨S2x16x2048x2048, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S2048, .i32⟩
  | .hbm, ⟨35, _⟩ => ⟨S2048x1, .i32⟩
  | .hbm, ⟨36, _⟩ => ⟨S1x2048, .i32⟩
  | .hbm, ⟨37, _⟩ => ⟨S2048x2048, .i32⟩
  | .hbm, ⟨38, _⟩ => ⟨S2048x2048, .i32⟩
  | .hbm, ⟨39, _⟩ => ⟨S2048x2048, .i32⟩
  | .hbm, ⟨40, _⟩ => ⟨S_, .i32⟩
  | .hbm, ⟨41, _⟩ => ⟨S2048x2048, .i32⟩
  | .hbm, ⟨42, _⟩ => ⟨S2048x2048, .i32⟩
  | .hbm, ⟨43, _⟩ => ⟨S_, .i32⟩
  | .hbm, ⟨44, _⟩ => ⟨S2048x2048, .i32⟩
  | .hbm, ⟨45, _⟩ => ⟨S2048x2048, .i1⟩
  | .hbm, ⟨46, _⟩ => ⟨S_, .i32⟩
  | .hbm, ⟨47, _⟩ => ⟨S2048x2048, .i32⟩
  | .hbm, ⟨48, _⟩ => ⟨S2048x2048, .i32⟩
  | .hbm, ⟨49, _⟩ => ⟨S2048x2048, .i32⟩
  | .hbm, ⟨50, _⟩ => ⟨S2048x2048x1, .i32⟩
  | .hbm, ⟨51, _⟩ => ⟨S2048x2048x16, .f32⟩
  | .hbm, ⟨52, _⟩ => ⟨S16x2048x2048, .f32⟩
  | .hbm, ⟨53, _⟩ => ⟨S1x16x2048x2048, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S_, .f32⟩
  | .hbm, ⟨59, _⟩ => ⟨S2x16x2048x2048, .f32⟩
  | .hbm, ⟨60, _⟩ => ⟨S2x16x2048x2048, .f32⟩
  | .hbm, ⟨61, _⟩ => ⟨S_, .f32⟩
  | .hbm, ⟨62, _⟩ => ⟨S2x16x2048x2048, .f32⟩
  | .hbm, ⟨63, _⟩ => ⟨S2x16x2048x2048, .f32⟩
  | .hbm, ⟨64, _⟩ => ⟨S2x16x2048x2048, .f32⟩
  | .hbm, ⟨65, _⟩ => ⟨S2x1x2048x2048, .i1⟩
  | .hbm, ⟨66, _⟩ => ⟨S_, .f32⟩
  | .hbm, ⟨67, _⟩ => ⟨S_, .f32⟩
  | .hbm, ⟨68, _⟩ => ⟨S2x16x2048x2048, .i1⟩
  | .hbm, ⟨69, _⟩ => ⟨S2x16x2048x2048, .f32⟩
  | .hbm, ⟨70, _⟩ => ⟨S2x16x2048x2048, .f32⟩
  | .hbm, ⟨71, _⟩ => ⟨S2x16x2048x64, .f32⟩
  | .hbm, ⟨72, _⟩ => ⟨S2x2048x16x64, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S1x1x1024, .f32⟩
  | .hbm, ⟨77, _⟩ => ⟨S2x2048x1024, .f32⟩
  | .hbm, ⟨78, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_0 : Ref sig .tc := ⟨.hbm, 43, rfl⟩
abbrev main_v26 : Ref sig .tc := ⟨.hbm, 44, rfl⟩
abbrev main_v27 : Ref sig .tc := ⟨.hbm, 45, rfl⟩
abbrev main_c_1 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v37 : Ref sig .tc := ⟨.hbm, 64, rfl⟩
abbrev main_v38 : Ref sig .tc := ⟨.hbm, 65, rfl⟩
abbrev main_cst_2 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  bcast_S_S2x2048x4096 : S_.BroadcastsInDim S2x2048x4096 (![] : Fin 0 → Fin S2x2048x4096.rank)
  slices_S2x2048x4096_S2x2048x1024_0_0_0 : S2x2048x4096.Slices ![0, 0, 0] S2x2048x1024
  slices_S2x2048x4096_S2x2048x1024_0_0_1024 : S2x2048x4096.Slices ![0, 0, 1024] S2x2048x1024
  slices_S2x2048x4096_S2x2048x1024_0_0_2048 : S2x2048x4096.Slices ![0, 0, 2048] S2x2048x1024
  slices_S2x2048x4096_S2x2048x1024_0_0_3072 : S2x2048x4096.Slices ![0, 0, 3072] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  transposes_S2048x2048x16_S16x2048x2048_2_0_1 : S2048x2048x16.Transposes [2, 0, 1] S16x2048x2048
  bcast_S16x2048x2048_S1x16x2048x2048_1_2_3 : S16x2048x2048.BroadcastsInDim S1x16x2048x2048 (![1, 2, 3] : Fin 3 → Fin S1x16x2048x2048.rank)
  bcast_S1x16x2048x2048_S2x16x2048x2048_0_1_2_3 : S1x16x2048x2048.BroadcastsInDim S2x16x2048x2048 (![0, 1, 2, 3] : Fin 4 → Fin S2x16x2048x2048.rank)
  bcast_S2x2048x2048_S2x1x2048x2048_0_2_3 : S2x2048x2048.BroadcastsInDim S2x1x2048x2048 (![0, 2, 3] : Fin 3 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x4096_S2x2048x4096_2_0_01_1_n_n_wf : DotDims.WF S2x2048x1024 S1024x4096 S2x2048x4096 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  gather_S4095x16_S2048x2048x1_S2048x2048x16_2_0_n_n_0_2_116_wf : GatherDims.WF S4095x16 S2048x2048x1 S2048x2048x16 [2] [0] [] [0] [] 2 ![1, 16]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x4096_S2x2048x4096_2_0_01_1_n_n : DotDims S2x2048x1024 S1024x4096 S2x2048x4096 where
  lhsContracting := [2]
  rhsContracting := [0]
  lhsNonContracting := [0, 1]
  rhsNonContracting := [1]
  lhsBatch := []
  rhsBatch := []
  wf := dot_S2x2048x1024_S1024x4096_S2x2048x4096_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def gather_S4095x16_S2048x2048x1_S2048x2048x16_2_0_n_n_0_2_116 : GatherDims S4095x16 S2048x2048x1 S2048x2048x16 where
  offsetDims := [2]
  collapsedSliceDims := [0]
  operandBatchingDims := []
  startIndicesBatchingDims := []
  startIndexMap := [0]
  indexVectorDim := 2
  sliceSizes := ![1, 16]
  wf := gather_S4095x16_S2048x2048x1_S2048x2048x16_2_0_n_n_0_2_116_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.KernelRun.lean ====
/-
  The idealized kernel's run with its RESULT named.

  The program is three kernel regions among four stretches of host operations.  The buffer contents at the eight
  segment boundaries form a chain: the launch memory, then alternately "the host operations' results written on
  top" and "a region's output array replaced by what its write-backs leave".  Every weakly fair execution
  terminates without a fault in a state whose unscoped buffers hold the LAST element of that chain; read at the
  result buffer this names the program's result, and read at an argument buffer it walks back to the launch
  memory (no operation and no region writes an argument).
-/
import proofs.«160577_j35175782154742_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run : θ_run defs (onTc (τ := τ) (main (F := F))) ⟨m, fun _ => 0, ρ⟩ (fun r => ∀ c : Dev nD,
      r.2.mem ((c.tc : Thread nD τ).loc main_v42) = W7 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v42 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.Stages.lean ====
/-
  The reference's attention stage and its output projection, each as ONE function of its immediate operands.

  * `refScores Q K RB`   : the logits  (Q · Kᵀ) · 0.125 + RB, the bias [16,2048,2048] repeated over the batch axis;
  * `refSilu Z`          : Z · (1 / (1 + e^(−Z))), entry by entry;
  * `refAttn Q K V RB M` : where(M, silu(logits), 0) · V, the mask [2,2048,2048] repeated over the head axis;
  * `refOut G W b`       : G · W + b, the bias [1024] repeated over the two leading axes.

  They are the reference program's own operations with their own dimension records, so that the program's
  stages are these functions of earlier stages by unfolding alone.
-/
import proofs.«160577_j35175782154742_1_alg».proof.Proof.Gen.ReferenceIdeal
import Idealize.ShloMosaic.PureOps.Ideal

noncomputable section

namespace Cert.Bridge

open Idealize.ShloMosaic Cert.ReferenceIdeal Cert.ReferenceIdeal.Gen

variable {F : FTy → Type} [FloatOps F]

/-- The attention logits: (Q · Kᵀ) · 0.125 + RB. -/
def refScores (Q K : (⟨S2x16x2048x64, .f32⟩ : BufTy).Contents (Elt F)) (RB : (⟨S16x2048x2048, .f32⟩ : BufTy).Contents (Elt F)) :
    (⟨S2x16x2048x2048, .f32⟩ : BufTy).Contents (Elt F) :=
  addf (mulf (Host.dotGeneral dot_S2x16x2048x64_S2x16x2048x64_S2x16x2048x2048_3_3_2_2_01_01 none Q K)
          (broadcastInDim S2x16x2048x2048 ![] bcast_S_S2x16x2048x2048 (constant S_ .f32 0x3E000000#32)))
    (broadcastInDim S2x16x2048x2048 ![0, 1, 2, 3] bcast_S1x16x2048x2048_S2x16x2048x2048_0_1_2_3
      (broadcastInDim S1x16x2048x2048 ![1, 2, 3] bcast_S16x2048x2048_S1x16x2048x2048_1_2_3 RB))

/-- Z · (1 / (1 + e^(−Z))). -/
def refSilu (Z : (⟨S2x16x2048x2048, .f32⟩ : BufTy).Contents (Elt F)) : (⟨S2x16x2048x2048, .f32⟩ : BufTy).Contents (Elt F) :=
  mulf Z (Host.divf (broadcastInDim S2x16x2048x2048 ![] bcast_S_S2x16x2048x2048 (constant S_ .f32 0x3F800000#32))
    (addf (broadcastInDim S2x16x2048x2048 ![] bcast_S_S2x16x2048x2048 (constant S_ .f32 0x3F800000#32)) (Host.exp (Host.negf Z))))

/-- where(M, silu(logits), 0) · V. -/
def refAttn (Q K V : (⟨S2x16x2048x64, .f32⟩ : BufTy).Contents (Elt F)) (RB : (⟨S16x2048x2048, .f32⟩ : BufTy).Contents (Elt F))
    (M : (⟨S2x2048x2048, .i1⟩ : BufTy).Contents (Elt F)) : (⟨S2x16x2048x64, .f32⟩ : BufTy).Contents (Elt F) :=
  Host.dotGeneral dot_S2x16x2048x2048_S2x16x2048x64_S2x16x2048x64_3_2_2_3_01_01 none
    (select
      (broadcastInDim S2x16x2048x2048 ![0, 1, 2, 3] bcast_S2x1x2048x2048_S2x16x2048x2048_0_1_2_3
        (broadcastInDim S2x1x2048x2048 ![0, 2, 3] bcast_S2x2048x2048_S2x1x2048x2048_0_2_3 M))
      (refSilu (refScores Q K RB))
      (broadcastInDim S2x16x2048x2048 ![] bcast_S_S2x16x2048x2048 (id (constant S_ .f32 0x00000000#32))))
    V

/-- G · W + b. -/
def refOut (G : (⟨S2x2048x1024, .f32⟩ : BufTy).Contents (Elt F)) (W : (⟨S1024x1024, .f32⟩ : BufTy).Contents (Elt F))
    (b : (⟨S1024, .f32⟩ : BufTy).Contents (Elt F)) : (⟨S2x2048x1024, .f32⟩ : BufTy).Contents (Elt F) :=
  addf (Host.dotGeneral dot_S2x2048x1024_S1024x1024_S2x2048x1024_2_0_01_1_n_n none G W)
    (broadcastInDim S2x2048x1024 ![0, 1, 2] bcast_S1x1x1024_S2x2048x1024_0_1_2
      (broadcastInDim S1x1x1024 ![2] bcast_S1024_S1x1x1024_2 b))

end Cert.Bridge

end
-- ==== Proof.Glue.lean ====
/-
  The idealized kernel's result is the reference's last stage of the same arguments.

  The kernel program is: host re-layouts, region 0 (the gated projection's activation A), host re-layouts of A
  into the heads Q, K, V and the gate U beside the relative-position bias gathered from the table and the mask
  widened to f32, region 1 (the attention output O), host re-layout of O times U (the gated value G), region 2
  (the output projection), one last reshape.  Given, for each region, that its output array is the reference's
  corresponding stage of the region's input arrays (`Region0Fact`, `Region1Fact`, `Region2Fact`), the rest is
  bookkeeping: every host operation between the regions is one the reference applies too, to the same values,
  so each intermediate array of the kernel program IS a stage of the reference, read off the chain of buffer
  contents at the segment boundaries, from the arguments forward.
-/
import proofs.«160577_j35175782154742_1_alg».proof.Proof.Gen.KernelIdeal.Frame
import proofs.«160577_j35175782154742_1_alg».proof.Proof.Gen.ReferenceIdeal.Read
import proofs.«160577_j35175782154742_1_alg».proof.Proof.Stages

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read (val_main_v4 val_main_v5 val_main_v10 val_main_v12 val_main_v14 val_main_v33 val_main_v40
  val_main_v43 val_main_v47)

/-- Region 0: its output array, viewed as [2,2048,4096], is the reference's activation of the arrays its three
    input arrays are re-layouts of. -/
def Region0Fact : Prop :=
  ∀ (V : (c : Dev nD) → (b : Ref sig .tc) → Buf (Elt Ideal) ((c : Thread nD τ).loc b)) (c : Dev nD)
    (x : (⟨S2x2048x1024, .f32⟩ : BufTy).Contents (Elt Ideal)) (W : (⟨S1024x4096, .f32⟩ : BufTy).Contents (Elt Ideal))
    (b : (⟨S4096, .f32⟩ : BufTy).Contents (Elt Ideal)),
    (V c main_v1 : (⟨S4096x1024, .bf16⟩ : BufTy).Contents (Elt Ideal)) = truncf (F := Ideal) (s := S4096x1024) (φ := .f32) .bf16 (shapeCast S4096x1024 x shapeCasts_S2x2048x1024_S4096x1024) bitsLt_bf16_f32 →
    (V c main_v2 : (⟨S1024x4096, .bf16⟩ : BufTy).Contents (Elt Ideal)) = truncf (F := Ideal) (s := S1024x4096) (φ := .f32) .bf16 W bitsLt_bf16_f32 →
    (V c main_v3 : (⟨S1x4096, .f32⟩ : BufTy).Contents (Elt Ideal)) = shapeCast S1x4096 b shapeCasts_S4096_S1x4096 →
    shapeCast S2x2048x4096 ((dat0 (F := Ideal) V c).arrAt 3 cfg0.N : (⟨S4096x4096, .f32⟩ : BufTy).Contents (Elt Ideal)) shapeCasts_S4096x4096_S2x2048x4096
      = val_main_v4 (F := Ideal) x W b

/-- Region 1: its output array is the reference's attention stage of its input arrays, the fifth being the mask
    widened to f32. -/
def Region1Fact : Prop :=
  ∀ (V : (c : Dev nD) → (b : Ref sig .tc) → Buf (Elt Ideal) ((c : Thread nD τ).loc b)) (c : Dev nD)
    (M : (⟨S2x2048x2048, .i1⟩ : BufTy).Contents (Elt Ideal)),
    (V c main_v32 : (⟨S2x2048x2048, .f32⟩ : BufTy).Contents (Elt Ideal)) = uitofp (F := Ideal) (s := S2x2048x2048) (w := 1) .f32 M →
    ((dat1 (F := Ideal) V c).arrAt 5 cfg1.N : (⟨S2x16x2048x64, .f32⟩ : BufTy).Contents (Elt Ideal))
      = refAttn (F := Ideal) (V c main_v11) (V c main_v13) (V c main_v15) (V c main_v31) M

/-- Region 2: its output array, viewed as [2,2048,1024], is the reference's output projection of the arrays its
    three input arrays are re-layouts of. -/
def Region2Fact : Prop :=
  ∀ (V : (c : Dev nD) → (b : Ref sig .tc) → Buf (Elt Ideal) ((c : Thread nD τ).loc b)) (c : Dev nD)
    (G : (⟨S2x2048x1024, .f32⟩ : BufTy).Contents (Elt Ideal)) (W : (⟨S1024x1024, .f32⟩ : BufTy).Contents (Elt Ideal))
    (b : (⟨S1024, .f32⟩ : BufTy).Contents (Elt Ideal)),
    (V c main_v38 : (⟨S4096x1024, .bf16⟩ : BufTy).Contents (Elt Ideal)) = truncf (F := Ideal) (s := S4096x1024) (φ := .f32) .bf16 (shapeCast S4096x1024 G shapeCasts_S2x2048x1024_S4096x1024) bitsLt_bf16_f32 →
    (V c main_v39 : (⟨S1024x1024, .bf16⟩ : BufTy).Contents (Elt Ideal)) = truncf (F := Ideal) (s := S1024x1024) (φ := .f32) .bf16 W bitsLt_bf16_f32 →
    (V c main_v40 : (⟨S1x1024, .f32⟩ : BufTy).Contents (Elt Ideal)) = shapeCast S1x1024 b shapeCasts_S1024_S1x1024 →
    shapeCast S2x2048x1024 ((dat2 (F := Ideal) V c).arrAt 3 cfg2.N : (⟨S4096x1024, .f32⟩ : BufTy).Contents (Elt Ideal)) shapeCasts_S4096x1024_S2x2048x1024
      = refOut (F := Ideal) G W b

variable (m : (ℓ : Loc nD τ sig) → Buf (Elt Ideal) ℓ) (ρ : Dev nD → PrngReg) (c : Dev nD)

/-! ## The arguments at the boundaries where a region or a host stretch reads them -/

/-- The table and the mask when region 0 has ended: as launched. -/
theorem table_at_2 : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

theorem mask_at_2 : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

/-- The second projection's weight and bias when region 1 has ended: as launched. -/
theorem weight2_at_4 : W4 m ρ c (Proc.devRef .tc main_arg3) = m ((c : Thread nD τ).loc main_arg3) :=
  (W4_of_ne m ρ c main_arg3 (by decide)).trans (by
    show StableHlo.after hostOps1 (W2 m ρ c) (Proc.devRef .tc main_arg3) = _
    after_results
    refine (W2_of_ne m ρ c main_arg3 (by decide)).trans ?_
    show StableHlo.after hostOps0 (W0 m ρ c) (Proc.devRef .tc main_arg3) = _
    after_results)

theorem bias2_at_4 : W4 m ρ c (Proc.devRef .tc main_arg4) = m ((c : Thread nD τ).loc main_arg4) :=
  (W4_of_ne m ρ c main_arg4 (by decide)).trans (by
    show StableHlo.after hostOps1 (W2 m ρ c) (Proc.devRef .tc main_arg4) = _
    after_results
    refine (W2_of_ne m ρ c main_arg4 (by decide)).trans ?_
    show StableHlo.after hostOps0 (W0 m ρ c) (Proc.devRef .tc main_arg4) = _
    after_results)

/-! ## Region 0: the activation -/

/-- Region 0's output array, viewed as [2,2048,4096], is the reference's activation stage of the arguments. -/
theorem activation (J0 : Region0Fact) :
    shapeCast S2x2048x4096 (W2 m ρ c (Proc.devRef .tc main_v4)) shapeCasts_S4096x4096_S2x2048x4096
      = val_main_v4 (F := Ideal) (m ((c : Thread nD τ).loc main_arg0)) (m ((c : Thread nD τ).loc main_arg1)) (m ((c : Thread nD τ).loc main_arg2)) := by
  have hW : W2 m ρ c (Proc.devRef .tc main_v4) = (dat0 (V1 m ρ) c).arrAt 3 cfg0.N := W2_arr m ρ c 3
  rw [hW]
  refine J0 (V1 m ρ) c _ _ _ ?_ ?_ ?_
  · show StableHlo.after hostOps0 (W0 m ρ c) (Proc.devRef .tc main_v1) = _
    after_results; rfl
  · show StableHlo.after hostOps0 (W0 m ρ c) (Proc.devRef .tc main_v2) = _
    after_results
  · show StableHlo.after hostOps0 (W0 m ρ c) (Proc.devRef .tc main_v3) = _
    after_results; rfl

/-! ## The host stretch between regions 0 and 1: heads, gate, bias, mask -/

/-- The query heads region 1 finds are the reference's. -/
theorem heads_q (J0 : Region0Fact) :
    V3 m ρ c main_v11 = val_main_v10 (F := Ideal) (m ((c : Thread nD τ).loc main_arg0)) (m ((c : Thread nD τ).loc main_arg1)) (m ((c : Thread nD τ).loc main_arg2)) := by
  show StableHlo.after hostOps1 (W2 m ρ c) (Proc.devRef .tc main_v11) = _
  after_results
  show transpose S2x16x2048x64 [0, 2, 1, 3] (shapeCast S2x2048x16x64 (extractStridedSlice S2x2048x1024 ![0, 0, 1024]
      (shapeCast S2x2048x4096 (W2 m ρ c (Proc.devRef .tc main_v4)) shapeCasts_S4096x4096_S2x2048x4096)
      slices_S2x2048x4096_S2x2048x1024_0_0_1024) shapeCasts_S2x2048x1024_S2x2048x16x64) transposes_S2x2048x16x64_S2x16x2048x64_0_2_1_3 = _
  rw [activation m ρ c J0]
  rfl

/-- The key heads. -/
theorem heads_k (J0 : Region0Fact) :
    V3 m ρ c main_v13 = val_main_v12 (F := Ideal) (m ((c : Thread nD τ).loc main_arg0)) (m ((c : Thread nD τ).loc main_arg1)) (m ((c : Thread nD τ).loc main_arg2)) := by
  show StableHlo.after hostOps1 (W2 m ρ c) (Proc.devRef .tc main_v13) = _
  after_results
  show transpose S2x16x2048x64 [0, 2, 1, 3] (shapeCast S2x2048x16x64 (extractStridedSlice S2x2048x1024 ![0, 0, 2048]
      (shapeCast S2x2048x4096 (W2 m ρ c (Proc.devRef .tc main_v4)) shapeCasts_S4096x4096_S2x2048x4096)
      slices_S2x2048x4096_S2x2048x1024_0_0_2048) shapeCasts_S2x2048x1024_S2x2048x16x64) transposes_S2x2048x16x64_S2x16x2048x64_0_2_1_3 = _
  rw [activation m ρ c J0]
  rfl

/-- The value heads. -/
theorem heads_v (J0 : Region0Fact) :
    V3 m ρ c main_v15 = val_main_v14 (F := Ideal) (m ((c : Thread nD τ).loc main_arg0)) (m ((c : Thread nD τ).loc main_arg1)) (m ((c : Thread nD τ).loc main_arg2)) := by
  show StableHlo.after hostOps1 (W2 m ρ c) (Proc.devRef .tc main_v15) = _
  after_results
  show transpose S2x16x2048x64 [0, 2, 1, 3] (shapeCast S2x2048x16x64 (extractStridedSlice S2x2048x1024 ![0, 0, 3072]
      (shapeCast S2x2048x4096 (W2 m ρ c (Proc.devRef .tc main_v4)) shapeCasts_S4096x4096_S2x2048x4096)
      slices_S2x2048x4096_S2x2048x1024_0_0_3072) shapeCasts_S2x2048x1024_S2x2048x16x64) transposes_S2x2048x16x64_S2x16x2048x64_0_2_1_3 = _
  rw [activation m ρ c J0]
  rfl

/-- The gate (the first quarter of the activation's columns), still there when region 1 has ended. -/
theorem gate (J0 : Region0Fact) :
    W4 m ρ c (Proc.devRef .tc main_v6) = val_main_v5 (F := Ideal) (m ((c : Thread nD τ).loc main_arg0)) (m ((c : Thread nD τ).loc main_arg1)) (m ((c : Thread nD τ).loc main_arg2)) := by
  refine (W4_of_ne m ρ c main_v6 (by decide)).trans ?_
  show StableHlo.after hostOps1 (W2 m ρ c) (Proc.devRef .tc main_v6) = _
  after_results
  show extractStridedSlice S2x2048x1024 ![0, 0, 0]
      (shapeCast S2x2048x4096 (W2 m ρ c (Proc.devRef .tc main_v4)) shapeCasts_S4096x4096_S2x2048x4096)
      slices_S2x2048x4096_S2x2048x1024_0_0_0 = _
  rw [activation m ρ c J0]
  rfl

/-- The relative-position bias region 1 finds is the reference's: the same gather of the same table at the same
    computed positions, the same transpose. -/
theorem rel_bias :
    V3 m ρ c main_v31 = val_main_v33 (F := Ideal) (m ((c : Thread nD τ).loc main_arg5)) := by
  show StableHlo.after hostOps1 (W2 m ρ c) (Proc.devRef .tc main_v31) = _
  after_results_simp
  rw [table_at_2 m ρ c]
  rfl

/-- The mask region 1 finds is the argument mask widened to f32. -/
theorem mask_f32 :
    (V3 m ρ c main_v32 : (⟨S2x2048x2048, .f32⟩ : BufTy).Contents (Elt Ideal))
      = uitofp (F := Ideal) (s := S2x2048x2048) (w := 1) .f32 (m ((c : Thread nD τ).loc main_arg6)) := by
  show StableHlo.after hostOps1 (W2 m ρ c) (Proc.devRef .tc main_v32) = _
  after_results
  rw [mask_at_2 m ρ c]

/-! ## Region 1: the attention output -/

/-- Region 1's output array is the reference's attention stage of the arguments. -/
theorem attention (J0 : Region0Fact) (J1 : Region1Fact) :
    W4 m ρ c (Proc.devRef .tc main_v33)
      = val_main_v40 (F := Ideal) (m ((c : Thread nD τ).loc main_arg0)) (m ((c : Thread nD τ).loc main_arg1)) (m ((c : Thread nD τ).loc main_arg2))
          (m ((c : Thread nD τ).loc main_arg5)) (m ((c : Thread nD τ).loc main_arg6)) := by
  have hW : W4 m ρ c (Proc.devRef .tc main_v33) = (dat1 (V3 m ρ) c).arrAt 5 cfg1.N := W4_arr m ρ c 5
  rw [hW]
  refine (J1 (V3 m ρ) c _ (mask_f32 m ρ c)).trans ?_
  rw [heads_q m ρ c J0, heads_k m ρ c J0, heads_v m ρ c J0, rel_bias m ρ c]
  rfl

/-! ## The host stretch between regions 1 and 2: the gated value -/

/-- The attention output re-laid as [2,2048,1024], times the gate. -/
def gated : (⟨S2x2048x1024, .f32⟩ : BufTy).Contents (Elt Ideal) :=
  mulf (F := Ideal) (s := S2x2048x1024) (φ := .f32) (shapeCast S2x2048x1024
      (transpose S2x2048x16x64 [0, 2, 1, 3] (W4 m ρ c (Proc.devRef .tc main_v33) : (⟨S2x16x2048x64, .f32⟩ : BufTy).Contents (Elt Ideal))
        transposes_S2x16x2048x64_S2x2048x16x64_0_2_1_3)
      shapeCasts_S2x2048x16x64_S2x2048x1024)
    (W4 m ρ c (Proc.devRef .tc main_v6) : (⟨S2x2048x1024, .f32⟩ : BufTy).Contents (Elt Ideal))

theorem gated_eq (J0 : Region0Fact) (J1 : Region1Fact) :
    gated m ρ c
      = val_main_v43 (F := Ideal) (m ((c : Thread nD τ).loc main_arg0)) (m ((c : Thread nD τ).loc main_arg1)) (m ((c : Thread nD τ).loc main_arg2))
          (m ((c : Thread nD τ).loc main_arg5)) (m ((c : Thread nD τ).loc main_arg6)) := by
  unfold gated
  rw [attention m ρ c J0 J1, gate m ρ c J0]
  rfl

/-! ## Region 2 and the last reshape -/

/-- The program's result buffer ends at the reference's last stage of the arguments. -/
theorem result_eq (J0 : Region0Fact) (J1 : Region1Fact) (J2 : Region2Fact) :
    W7 m ρ c (Proc.devRef .tc main_v42)
      = val_main_v47 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  have hT : W7 m ρ c (Proc.devRef .tc main_v42)
      = shapeCast S2x2048x1024 (W6 m ρ c (Proc.devRef .tc main_v41)) shapeCasts_S4096x1024_S2x2048x1024 := by
    show StableHlo.after hostOps3 (W6 m ρ c) (Proc.devRef .tc main_v42) = _
    after_results; rfl
  have hW : W6 m ρ c (Proc.devRef .tc main_v41) = (dat2 (V5 m ρ) c).arrAt 3 cfg2.N := W6_arr m ρ c 3
  rw [hT, hW]
  refine (J2 (V5 m ρ) c (gated m ρ c) (m ((c : Thread nD τ).loc main_arg3)) (m ((c : Thread nD τ).loc main_arg4)) ?_ ?_ ?_).trans ?_
  · show StableHlo.after hostOps2 (W4 m ρ c) (Proc.devRef .tc main_v38) = _
    after_results; rfl
  · show StableHlo.after hostOps2 (W4 m ρ c) (Proc.devRef .tc main_v39) = _
    after_results
    rw [weight2_at_4 m ρ c]
  · show StableHlo.after hostOps2 (W4 m ρ c) (Proc.devRef .tc main_v40) = _
    after_results
    rw [bias2_at_4 m ρ c]
    rfl
  · rw [gated_eq m ρ c J0 J1]
    rfl

end Cert.Bridge

end
-- ==== Proof.Algebraic.lean ====
/-
  The certificate's five claims from the three region facts.

  * The two kernel programs' frames are the generated frame certificates; the reference's frame is its run with
    the result dropped; the idealization ledger is empty.
  * The algebraic claim: the idealized kernel's run ends with its result buffer at the last segment boundary's
    contents, which are the reference's last stage of the kernel's arguments (`Cert.Bridge.result_eq`); the
    reference's run ends at the same stage of ITS arguments, and the two memories agree on the arguments.
-/
import proofs.«160577_j35175782154742_1_alg».proof.Defs
import proofs.«160577_j35175782154742_1_alg».proof.Proof.Gen.Kernel.Frame
import proofs.«160577_j35175782154742_1_alg».proof.Proof.Gen.Pre_finite_inputs
import proofs.«160577_j35175782154742_1_alg».proof.Proof.KernelRun
import proofs.«160577_j35175782154742_1_alg».proof.Proof.Glue

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run, and their results are one array: the reference's last stage of the shared arguments. -/
theorem algebraic (J0 : Cert.Bridge.Region0Fact) (J1 : Cert.Bridge.Region1Fact) (J2 : Cert.Bridge.Region2Fact) :
    Cert.algebraic_KernelIdeal_ReferenceIdeal := by
  intro m ρ m' ρ' _ hagree
  refine ⟨fun c => Cert.KernelIdeal.Gen.W7 m ρ c (Proc.devRef .tc Cert.KernelIdeal.main_v42),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2.1,
    (hagree c).2.2.2.2.1, (hagree c).2.2.2.2.2.1, (hagree c).2.2.2.2.2.2]
  exact (Cert.Bridge.result_eq m ρ c J0 J1 J2).symm

end Cert.Proof.Claims

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.LibRank4Layout.lean ====
/-
  Reshapes, the middle-axes transpose and the `broadcast_in_dim`s of an attention layer's host code, read at an index
  given by its coordinates, for any sizes.

  * Reshapes (a row-major re-indexing): the last axis split in two, `[a,b,n] → [a,b,c,d]` with n = c·d, and merged
    back; the first two axes merged, `[a,b,c] → [m,c]` with m = a·b, and split back.  Each is stated with the merged
    coordinate and the two split coordinates related by a hypothesis (j = r·d + t), so no division appears.
  * The transpose that swaps the two middle axes of a rank-4 array, `[a,b,c,d] → [a,c,b,d]` (permutation [0,2,1,3]).
  * `broadcast_in_dim`: a scalar to any shape; a vector `[n]` as `[1,1,n]` and that along both leading axes to
    `[a,b,n]`; a matrix `[a,b]` as `[a,b,1]` and that along the last axis to `[a,b,c]`; a rank-3 array `[a,c,d]` as
    `[a,1,c,d]` and that along axis 1 to `[a,b,c,d]`; a rank-3 array `[a,b,c]` as `[a,b,c,1]` and that along the
    last axis to `[a,b,c,d]`.
-/
import Idealize.ShloMosaic.Lib.ValueIdx
import Idealize.ShloMosaic.Lib.Pipeline.Value

namespace Cert.Lib.Rank4Layout

open Idealize.ShloMosaic Idealize.ShloMosaic.ValueIdx

variable {α : Type}

/-! ## Reshapes -/

/-- The last axis split: entry (p, q, r, t) of the result is entry (p, q, j) of the source, j = r·d + t. -/
theorem splitLast_apply {a b n c d : Nat} (v : (⟨3, ![a, b, n]⟩ : Shape).Idx → α)
    (h : (⟨3, ![a, b, n]⟩ : Shape).ShapeCasts ⟨4, ![a, b, c, d]⟩) (hn : n = c * d)
    (p : Fin a) (q : Fin b) (r : Fin c) (t : Fin d) (j : Fin n) (hj : j.val = r.val * d + t.val) :
    shapeCast (⟨4, ![a, b, c, d]⟩ : Shape) v h (ix4 p q r t) = v (ix3 p q j) := by
  refine shapeCast_apply v h (ix4 p q r t) (ix3 p q j) ?_
  rw [Shape.rowMajor_val_three, Shape.rowMajor_val_four]
  show (p.val * b + q.val) * n + j.val = ((p.val * b + q.val) * c + r.val) * d + t.val
  rw [hj, hn]; ring

/-- The last two axes merged: entry (p, q, j) of the result is entry (p, q, r, t) of the source, j = r·d + t. -/
theorem mergeLast_apply {a b n c d : Nat} (v : (⟨4, ![a, b, c, d]⟩ : Shape).Idx → α)
    (h : (⟨4, ![a, b, c, d]⟩ : Shape).ShapeCasts ⟨3, ![a, b, n]⟩) (hn : n = c * d)
    (p : Fin a) (q : Fin b) (j : Fin n) (r : Fin c) (t : Fin d) (hj : j.val = r.val * d + t.val) :
    shapeCast (⟨3, ![a, b, n]⟩ : Shape) v h (ix3 p q j) = v (ix4 p q r t) := by
  refine shapeCast_apply v h (ix3 p q j) (ix4 p q r t) ?_
  rw [Shape.rowMajor_val_three, Shape.rowMajor_val_four]
  show ((p.val * b + q.val) * c + r.val) * d + t.val = (p.val * b + q.val) * n + j.val
  rw [hj, hn]; ring

/-- The first two axes merged: entry (i, r) of the result is entry (p, q, r) of the source, i = p·b + q. -/
theorem mergeFirst_apply {a b c m : Nat} (v : (⟨3, ![a, b, c]⟩ : Shape).Idx → α)
    (h : (⟨3, ![a, b, c]⟩ : Shape).ShapeCasts ⟨2, ![m, c]⟩)
    (i : Fin m) (r : Fin c) (p : Fin a) (q : Fin b) (hi : i.val = p.val * b + q.val) :
    shapeCast (⟨2, ![m, c]⟩ : Shape) v h (ix2 i r) = v (ix3 p q r) := by
  refine shapeCast_apply v h (ix2 i r) (ix3 p q r) ?_
  rw [Shape.rowMajor_val_three, Shape.rowMajor_val_two]
  show (p.val * b + q.val) * c + r.val = i.val * c + r.val
  rw [hi]

/-- The first axis split: entry (p, q, r) of the result is entry (i, r) of the source, i = p·b + q. -/
theorem splitFirst_apply {a b c m : Nat} (v : (⟨2, ![m, c]⟩ : Shape).Idx → α)
    (h : (⟨2, ![m, c]⟩ : Shape).ShapeCasts ⟨3, ![a, b, c]⟩)
    (p : Fin a) (q : Fin b) (r : Fin c) (i : Fin m) (hi : i.val = p.val * b + q.val) :
    shapeCast (⟨3, ![a, b, c]⟩ : Shape) v h (ix3 p q r) = v (ix2 i r) := by
  refine shapeCast_apply v h (ix3 p q r) (ix2 i r) ?_
  rw [Shape.rowMajor_val_three, Shape.rowMajor_val_two]
  show i.val * c + r.val = (p.val * b + q.val) * c + r.val
  rw [hi]

/-! ## The middle-axes transpose -/

/-- Entry (p, r, q, t) of the transpose is entry (p, q, r, t) of the source. -/
theorem swapMiddle_apply {a b c d : Nat} (v : (⟨4, ![a, b, c, d]⟩ : Shape).Idx → α)
    (h : (⟨4, ![a, b, c, d]⟩ : Shape).Transposes [0, 2, 1, 3] ⟨4, ![a, c, b, d]⟩)
    (p : Fin a) (r : Fin c) (q : Fin b) (t : Fin d) :
    transpose (⟨4, ![a, c, b, d]⟩ : Shape) [0, 2, 1, 3] v h (ix4 p r q t) = v (ix4 p q r t) := by
  refine transpose_apply [0, 2, 1, 3] v h (ix4 p r q t) (ix4 p q r t) fun bx => ?_
  match bx with
  | ⟨0, _⟩ => rfl
  | ⟨1, _⟩ => rfl
  | ⟨2, _⟩ => rfl
  | ⟨3, _⟩ => rfl

/-! ## `broadcast_in_dim` -/

/-- A coordinate kept by a broadcast: itself, or 0 when the axis has extent one (then it is 0 anyway). -/
theorem keep {a : Nat} (p : Fin a) : p.val = if a = 1 then 0 else p.val := by
  by_cases ha : a = 1
  · rw [if_pos ha]; have := p.isLt; omega
  · rw [if_neg ha]

/-- A coordinate on a unit axis of the operand is 0. -/
theorem unit (z : Fin 1) (x : Nat) : z.val = if (1 : Nat) = 1 then 0 else x := by
  rw [if_pos rfl]; have := z.isLt; omega

/-- A scalar to any shape: every entry is the scalar. -/
theorem scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply (![] : Fin 0 → Fin t.rank) h v j ix0 (fun ax => ax.elim0)

/-- A vector as `[1,1,n]`: entry (z0, z1, q) is the vector's entry q. -/
theorem vecTo11n_apply {n : Nat} (v : (⟨1, ![n]⟩ : Shape).Idx → α)
    (h : (⟨1, ![n]⟩ : Shape).BroadcastsInDim ⟨3, ![1, 1, n]⟩ (![2] : Fin 1 → Fin 3)) (z0 z1 : Fin 1) (q : Fin n) :
    broadcastInDim (⟨3, ![1, 1, n]⟩ : Shape) (![2] : Fin 1 → Fin 3) h v (ix3 z0 z1 q) = v (ix1 q) := by
  refine broadcastInDim_apply (![2] : Fin 1 → Fin 3) h v (ix3 z0 z1 q) (ix1 q) fun ax => ?_
  match ax with
  | ⟨0, _⟩ => exact keep q

/-- `[1,1,n]` along both leading axes: entry (p, q, r) is the operand's entry (0, 0, r). -/
theorem lead11n_apply {a b n : Nat} (v : (⟨3, ![1, 1, n]⟩ : Shape).Idx → α)
    (h : (⟨3, ![1, 1, n]⟩ : Shape).BroadcastsInDim ⟨3, ![a, b, n]⟩ (![0, 1, 2] : Fin 3 → Fin 3)) (p : Fin a) (q : Fin b) (r : Fin n) :
    broadcastInDim (⟨3, ![a, b, n]⟩ : Shape) (![0, 1, 2] : Fin 3 → Fin 3) h v (ix3 p q r) = v (ix3 (0 : Fin 1) (0 : Fin 1) r) := by
  refine broadcastInDim_apply (![0, 1, 2] : Fin 3 → Fin 3) h v (ix3 p q r) (ix3 (0 : Fin 1) (0 : Fin 1) r) fun ax => ?_
  match ax with
  | ⟨0, _⟩ => exact unit 0 p.val
  | ⟨1, _⟩ => exact unit 0 q.val
  | ⟨2, _⟩ => exact keep r

/-- A matrix as `[a,b,1]`: entry (p, q, z) is the matrix's entry (p, q). -/
theorem matToAb1_apply {a b : Nat} (v : (⟨2, ![a, b]⟩ : Shape).Idx → α)
    (h : (⟨2, ![a, b]⟩ : Shape).BroadcastsInDim ⟨3, ![a, b, 1]⟩ (![0, 1] : Fin 2 → Fin 3)) (p : Fin a) (q : Fin b) (z : Fin 1) :
    broadcastInDim (⟨3, ![a, b, 1]⟩ : Shape) (![0, 1] : Fin 2 → Fin 3) h v (ix3 p q z) = v (ix2 p q) := by
  refine broadcastInDim_apply (![0, 1] : Fin 2 → Fin 3) h v (ix3 p q z) (ix2 p q) fun ax => ?_
  match ax with
  | ⟨0, _⟩ => exact keep p
  | ⟨1, _⟩ => exact keep q

/-- `[a,b,1]` along the last axis: entry (p, q, r) is the operand's entry (p, q, 0). -/
theorem lastAb1_apply {a b c : Nat} (v : (⟨3, ![a, b, 1]⟩ : Shape).Idx → α)
    (h : (⟨3, ![a, b, 1]⟩ : Shape).BroadcastsInDim ⟨3, ![a, b, c]⟩ (![0, 1, 2] : Fin 3 → Fin 3)) (p : Fin a) (q : Fin b) (r : Fin c) :
    broadcastInDim (⟨3, ![a, b, c]⟩ : Shape) (![0, 1, 2] : Fin 3 → Fin 3) h v (ix3 p q r) = v (ix3 p q (0 : Fin 1)) := by
  refine broadcastInDim_apply (![0, 1, 2] : Fin 3 → Fin 3) h v (ix3 p q r) (ix3 p q (0 : Fin 1)) fun ax => ?_
  match ax with
  | ⟨0, _⟩ => exact keep p
  | ⟨1, _⟩ => exact keep q
  | ⟨2, _⟩ => exact unit 0 r.val

/-- A rank-3 array as `[a,1,c,d]`: entry (p, z, r, t) is the array's entry (p, r, t). -/
theorem r3ToA1cd_apply {a c d : Nat} (v : (⟨3, ![a, c, d]⟩ : Shape).Idx → α)
    (h : (⟨3, ![a, c, d]⟩ : Shape).BroadcastsInDim ⟨4, ![a, 1, c, d]⟩ (![0, 2, 3] : Fin 3 → Fin 4))
    (p : Fin a) (z : Fin 1) (r : Fin c) (t : Fin d) :
    broadcastInDim (⟨4, ![a, 1, c, d]⟩ : Shape) (![0, 2, 3] : Fin 3 → Fin 4) h v (ix4 p z r t) = v (ix3 p r t) := by
  refine broadcastInDim_apply (![0, 2, 3] : Fin 3 → Fin 4) h v (ix4 p z r t) (ix3 p r t) fun ax => ?_
  match ax with
  | ⟨0, _⟩ => exact keep p
  | ⟨1, _⟩ => exact keep r
  | ⟨2, _⟩ => exact keep t

/-- `[a,1,c,d]` along axis 1: entry (p, q, r, t) is the operand's entry (p, 0, r, t). -/
theorem axis1A1cd_apply {a b c d : Nat} (v : (⟨4, ![a, 1, c, d]⟩ : Shape).Idx → α)
    (h : (⟨4, ![a, 1, c, d]⟩ : Shape).BroadcastsInDim ⟨4, ![a, b, c, d]⟩ (![0, 1, 2, 3] : Fin 4 → Fin 4))
    (p : Fin a) (q : Fin b) (r : Fin c) (t : Fin d) :
    broadcastInDim (⟨4, ![a, b, c, d]⟩ : Shape) (![0, 1, 2, 3] : Fin 4 → Fin 4) h v (ix4 p q r t) = v (ix4 p (0 : Fin 1) r t) := by
  refine broadcastInDim_apply (![0, 1, 2, 3] : Fin 4 → Fin 4) h v (ix4 p q r t) (ix4 p (0 : Fin 1) r t) fun ax => ?_
  match ax with
  | ⟨0, _⟩ => exact keep p
  | ⟨1, _⟩ => exact unit 0 q.val
  | ⟨2, _⟩ => exact keep r
  | ⟨3, _⟩ => exact keep t

/-- A rank-3 array as `[a,b,c,1]`: entry (p, q, r, z) is the array's entry (p, q, r). -/
theorem r3ToAbc1_apply {a b c : Nat} (v : (⟨3, ![a, b, c]⟩ : Shape).Idx → α)
    (h : (⟨3, ![a, b, c]⟩ : Shape).BroadcastsInDim ⟨4, ![a, b, c, 1]⟩ (![0, 1, 2] : Fin 3 → Fin 4))
    (p : Fin a) (q : Fin b) (r : Fin c) (z : Fin 1) :
    broadcastInDim (⟨4, ![a, b, c, 1]⟩ : Shape) (![0, 1, 2] : Fin 3 → Fin 4) h v (ix4 p q r z) = v (ix3 p q r) := by
  refine broadcastInDim_apply (![0, 1, 2] : Fin 3 → Fin 4) h v (ix4 p q r z) (ix3 p q r) fun ax => ?_
  match ax with
  | ⟨0, _⟩ => exact keep p
  | ⟨1, _⟩ => exact keep q
  | ⟨2, _⟩ => exact keep r

/-- `[a,b,c,1]` along the last axis: entry (p, q, r, t) is the operand's entry (p, q, r, 0). -/
theorem lastAbc1_apply {a b c d : Nat} (v : (⟨4, ![a, b, c, 1]⟩ : Shape).Idx → α)
    (h : (⟨4, ![a, b, c, 1]⟩ : Shape).BroadcastsInDim ⟨4, ![a, b, c, d]⟩ (![0, 1, 2, 3] : Fin 4 → Fin 4))
    (p : Fin a) (q : Fin b) (r : Fin c) (t : Fin d) :
    broadcastInDim (⟨4, ![a, b, c, d]⟩ : Shape) (![0, 1, 2, 3] : Fin 4 → Fin 4) h v (ix4 p q r t) = v (ix4 p q r (0 : Fin 1)) := by
  refine broadcastInDim_apply (![0, 1, 2, 3] : Fin 4 → Fin 4) h v (ix4 p q r t) (ix4 p q r (0 : Fin 1)) fun ax => ?_
  match ax with
  | ⟨0, _⟩ => exact keep p
  | ⟨1, _⟩ => exact keep q
  | ⟨2, _⟩ => exact keep r
  | ⟨3, _⟩ => exact unit 0 t.val

end Cert.Lib.Rank4Layout
-- ==== Proof.LibLogisticTanh.lean ====
/-
  The logistic function through the hyperbolic tangent, on the extended reals:

      1/2 · (tanh (1/2 · x) + 1) = 1 / (1 + e^(-x))        for EVERY extended real x.

  On a real x, with y = x/2: (tanh y + 1)/2 = e^y / (e^y + e^(-y)) = 1 / (1 + e^(-2y)). At +∞ both sides are 1
  (tanh ⊤ = 1; e^(-⊤) = 0), at -∞ both are 0 (tanh ⊥ = -1; 1 / (1 + ⊤) = 0). So a program that spells the logistic
  function with one tanh and a program that spells it with an exponential and a quotient agree with no finiteness
  assumption on the argument. Stated over the reals, over the extended reals, and over the f32 patterns of 0.5 and 1.0.
-/
import Idealize.ShloMosaic.PureOps.Ideal

noncomputable section

namespace Cert.LibLogisticTanh

open Idealize.ShloMosaic

/-- The f32 pattern of 0.5 denotes 1/2. -/
theorem ofBits_half : Ideal.ofBits .f32 0x3F000000#32 = ((1 / 2 : ℝ) : EReal) := by
  simp [Ideal.ofBits, Ideal.ieee, -EReal.coe_mul]; norm_num

/-- The f32 pattern of 1.0 denotes 1. -/
theorem ofBits_one : Ideal.ofBits .f32 0x3F800000#32 = (1 : EReal) := by
  rw [← EReal.coe_one]; simp [Ideal.ofBits, Ideal.ieee, -EReal.coe_mul, -EReal.coe_one]; norm_num

/-- (tanh y + 1) / 2 = 1 / (1 + e^(-2y)) on the reals: multiply numerator and denominator of e^y / (e^y + e^(-y)) by e^(-y). -/
theorem half_tanh_add_one (y : ℝ) : 1 / 2 * (Real.tanh y + 1) = (1 + Real.exp (-(2 * y)))⁻¹ := by
  have hpos : 0 < Real.exp y := Real.exp_pos y
  have hneg : Real.exp (-y) = (Real.exp y)⁻¹ := Real.exp_neg y
  have h2 : Real.exp (-(2 * y)) = (Real.exp y)⁻¹ * (Real.exp y)⁻¹ := by
    rw [← hneg, ← Real.exp_add]; congr 1; ring
  rw [Real.tanh_eq_sinh_div_cosh, Real.sinh_eq, Real.cosh_eq, hneg, h2]
  have hne : Real.exp y ≠ 0 := hpos.ne'
  have hsum : Real.exp y * Real.exp y + 1 ≠ 0 := by positivity
  field_simp
  ring

/-- 1/2 · (tanh (1/2 · x) + 1) is the logistic function of x, at every extended real. -/
theorem half_tanh_half_eq_logistic (x : EReal) :
    ((1 / 2 : ℝ) : EReal) * (Ideal.tanh (((1 / 2 : ℝ) : EReal) * x) + 1) = Ideal.logistic x := by
  induction x using EReal.rec with
  | bot =>
    rw [EReal.coe_mul_bot_of_pos (by norm_num), Ideal.tanh_bot, Ideal.logistic_bot]
    rw [show ((-1 : EReal)) = ((-1 : ℝ) : EReal) from by rw [EReal.coe_neg, EReal.coe_one], ← EReal.coe_one,
      ← EReal.coe_add, ← EReal.coe_mul]
    norm_num
  | top =>
    rw [EReal.coe_mul_top_of_pos (by norm_num), Ideal.tanh_top, Ideal.logistic_top]
    rw [← EReal.coe_one, ← EReal.coe_add, ← EReal.coe_mul]
    norm_num
  | coe r =>
    rw [← EReal.coe_mul, Ideal.tanh_coe, ← EReal.coe_one, ← EReal.coe_add, ← EReal.coe_mul, Ideal.logistic_coe,
      half_tanh_add_one]
    congr 4; ring

/-- The same with 0.5 and 1.0 as f32 patterns: the tanh spelling of a float program. -/
theorem tanh_spelling_f32 (x : EReal) :
    Ideal.ofBits .f32 0x3F000000#32 * (Ideal.tanh (Ideal.ofBits .f32 0x3F000000#32 * x) + Ideal.ofBits .f32 0x3F800000#32)
      = Ideal.logistic x := by
  rw [ofBits_half, ofBits_one, half_tanh_half_eq_logistic]

/-- The exponential spelling of a float program, 1.0 / (1.0 + e^(-x)) with 1.0 as its f32 pattern, is the logistic
    function by definition. -/
theorem exp_spelling_f32 (x : EReal) :
    Ideal.div (Ideal.ofBits .f32 0x3F800000#32) (Ideal.ofBits .f32 0x3F800000#32 + Ideal.exp (-x)) = Ideal.logistic x := by
  rw [ofBits_one]; rfl

end Cert.LibLogisticTanh

end
-- ==== Proof.RegionAct.lean ====
/-
  Region 0 of the kernel: the activated projection.

  The region computes, tile by tile over the grid (8, 4), the array silu(X · W + B) of shape [4096, 4096], where X is
  [4096, 1024], W is [1024, 4096], B is a row [1, 4096] repeated over the rows, and silu z = z · logistic z.  The
  output tile (i, j) is 512 × 1024; it reads row block i of X (all 1024 columns), column block j of W (all 1024 rows)
  and column block j of B.

  * The body's stored block at (p, q) is silu(∑ k, x0 (p, k) · x1 (k, q) + x2 (0, q)) of its three loaded blocks: a matrix
    product into the zero accumulator, the bias row repeated over the rows, then z · logistic z.
  * What grid point t writes back is the restriction to block t of ONE function of the whole arrays, entry (P, Q) ↦
    silu(∑ k, X (P, k) · W (k, Q) + B (0, Q)): a block's coordinate in the array is block index × block size + the
    coordinate inside the block, and X's block index follows the output's row block while W's and B's follow its column
    block.
  * The 32 output blocks cover the array (row P lies in row block P / 512, column Q in column block Q / 1024), so the
    array the region leaves is that function.
  * Reshaped to [2, 2048, 4096], it is the reference's stage silu(einsum(x, W) + b): row a · 2048 + r of the merged x is
    row (a, r) of x, narrowing to bf16 is the identity on the extended reals, the row [1, 4096] holds b, both sides sum
    over the same contraction index, and 1 / (1 + e^(−z)) is the logistic function at every extended real.
-/
import proofs.«160577_j35175782154742_1_alg».proof.Proof.Gen.KernelIdeal.Frame
import proofs.«160577_j35175782154742_1_alg».proof.Proof.Gen.ReferenceIdeal.Read
import proofs.«160577_j35175782154742_1_alg».proof.Proof.LibPlainDot
import proofs.«160577_j35175782154742_1_alg».proof.Proof.LibRank2Layout
import proofs.«160577_j35175782154742_1_alg».proof.Proof.LibRank4Layout
import proofs.«160577_j35175782154742_1_alg».proof.Proof.LibLogisticTanh
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.TcCoe Idealize.SL.Sem Cert.KernelIdeal Cert.KernelIdeal.Gen
open Idealize.ShloMosaic.ValueIdx
open scoped BigOperators

-- the lemmas of region 0, in a namespace of their own
namespace Act

/-! ## One entry of silu(X · W + B), and the body's stored block -/
/-- x · σ(x) on the extended reals. -/
def silu (z : EReal) : EReal := z * Ideal.logistic z

/-- One entry of silu(X·W + row bias): entry (p, q) from row p of X, column q of W and entry q of the bias row. -/
def actAt {A K B : Nat} (X : (⟨2, ![A, K]⟩ : Shape).Idx → EReal) (Wm : (⟨2, ![K, B]⟩ : Shape).Idx → EReal)
    (Bv : (⟨2, ![1, B]⟩ : Shape).Idx → EReal) (p : Fin A) (q : Fin B) : EReal :=
  silu ((∑ k : Fin K, X (ix2 p k) * Wm (ix2 k q)) + Bv (ix2 (0 : Fin 1) q))

/-- Two entries agree when the row of X, the column of W and the bias entry they read agree. -/
theorem actAt_congr {A K B A' B' : Nat} (X : (⟨2, ![A, K]⟩ : Shape).Idx → EReal) (Wm : (⟨2, ![K, B]⟩ : Shape).Idx → EReal)
    (Bv : (⟨2, ![1, B]⟩ : Shape).Idx → EReal) (X' : (⟨2, ![A', K]⟩ : Shape).Idx → EReal)
    (Wm' : (⟨2, ![K, B']⟩ : Shape).Idx → EReal) (Bv' : (⟨2, ![1, B']⟩ : Shape).Idx → EReal)
    (p : Fin A) (q : Fin B) (p' : Fin A') (q' : Fin B')
    (hX : ∀ k : Fin K, X (ix2 p k) = X' (ix2 p' k)) (hW : ∀ k : Fin K, Wm (ix2 k q) = Wm' (ix2 k q'))
    (hB : Bv (ix2 (0 : Fin 1) q) = Bv' (ix2 (0 : Fin 1) q')) :
    actAt X Wm Bv p q = actAt X' Wm' Bv' p' q' := by
  unfold actAt
  rw [Finset.sum_congr rfl (fun k _ => by rw [hX k, hW k]), hB]

/-- The whole [4096, 4096] array silu(X·W + row bias). -/
def actG (X : S4096x1024.Idx → EReal) (Wm : S1024x4096.Idx → EReal) (Bv : S1x4096.Idx → EReal) : S4096x4096.Idx → EReal :=
  fun i => actAt X Wm Bv (i 0) (i 1)

/-- THE BODY'S STORED BLOCK at (p, q): a matrix product into the zero accumulator, plus the bias row repeated over
    the rows, times its logistic. -/
theorem pay_at (x0 : FVec Ideal S512x1024 .bf16) (x1 : FVec Ideal S1024x1024 .bf16) (x2 : FVec Ideal S1x1024 .f32)
    (p : Fin 512) (q : Fin 1024) :
    k0_pay1 (F := Ideal) x0 x1 x2 (ix2 p q) = actAt x0 x1 x2 p q := by
  unfold k0_pay1 actAt silu
  simp only [shapeCast_self]
  have hm : matmul (F := Ideal) dot_S512x1024_S1024x1024_S512x1024_1_0_0_1_n_n none x0 x1 (constant S512x1024 .f32 0x00000000#32) (ix2 p q)
      = ∑ k : Fin 1024, x0 (ix2 p k) * x1 (ix2 k q) :=
    matmul_zero_plain dot_S512x1024_S1024x1024_S512x1024_1_0_0_1_n_n rfl rfl rfl rfl rfl rfl none x0 x1 p q
  have hb := Rank2.bcastRow_apply x2 broadcasts_S1x1024_S512x1024 p q
  rw [mulf_apply, ← hm, ← hb]
  rfl

/-! ## From blocks to the array -/

/-- The zero offsets of a whole-block access. -/
theorem hz : (![0, 0] : Fin 2 → Nat) = fun _ => 0 := funext fun a => by fin_cases a <;> rfl

/-- The index maps at each of the 32 points of the grid (8, 4): X's block index is (the output's row block, 0), W's and
    the bias row's are (0, the output's column block), and the output's block indices stay in their ranges. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block of the output is some point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

section Blocks

variable (V : (c : Dev nD) → (b : Ref sig .tc) → Buf (Elt Ideal) ((c : Thread nD τ).loc b)) (c : Dev nD)
variable (X : (⟨S4096x1024, .bf16⟩ : BufTy).Contents (Elt Ideal)) (Wm : (⟨S1024x4096, .bf16⟩ : BufTy).Contents (Elt Ideal))
  (Bv : (⟨S1x4096, .f32⟩ : BufTy).Contents (Elt Ideal))

set_option maxHeartbeats 400000 in
/-- X's block at point t, read at (p, k): row (block row · 512 + p) of X. -/
theorem blk0_at (hX : (V c main_v1 : (⟨S4096x1024, .bf16⟩ : BufTy).Contents (Elt Ideal)) = X) (t : Fin cfg0.N)
    (p : Fin 512) (k : Fin 1024) (P : Fin 4096) (hP : P.val = win0_3.index t (0 : Fin 2) * 512 + p.val) :
    (iblk0 V c 0 t : FVec Ideal S512x1024 .bf16) (ix2 p k) = X (ix2 P k) := by
  obtain ⟨e0, e1, -⟩ := idx_facts t
  unfold iblk0
  rw [View.read_apply]
  show (V c main_v1 : (⟨S4096x1024, .bf16⟩ : BufTy).Contents (Elt Ideal)) _ = X _
  rw [hX]
  congr 1
  funext a
  apply Fin.ext
  match a with
  | ⟨0, _⟩ => show win0_0.index t (0 : Fin 2) * 512 + 1 * p.val = P.val; omega
  | ⟨1, _⟩ => show win0_0.index t (1 : Fin 2) * 1024 + 1 * k.val = k.val; omega

set_option maxHeartbeats 400000 in
/-- W's block at point t, read at (k, q): column (block column · 1024 + q) of W. -/
theorem blk1_at (hW : (V c main_v2 : (⟨S1024x4096, .bf16⟩ : BufTy).Contents (Elt Ideal)) = Wm) (t : Fin cfg0.N)
    (k : Fin 1024) (q : Fin 1024) (Q : Fin 4096) (hQ : Q.val = win0_3.index t (1 : Fin 2) * 1024 + q.val) :
    (iblk0 V c 1 t : FVec Ideal S1024x1024 .bf16) (ix2 k q) = Wm (ix2 k Q) := by
  obtain ⟨-, -, e2, e3, -⟩ := idx_facts t
  unfold iblk0
  rw [View.read_apply]
  show (V c main_v2 : (⟨S1024x4096, .bf16⟩ : BufTy).Contents (Elt Ideal)) _ = Wm _
  rw [hW]
  congr 1
  funext a
  apply Fin.ext
  match a with
  | ⟨0, _⟩ => show win0_1.index t (0 : Fin 2) * 1024 + 1 * k.val = k.val; omega
  | ⟨1, _⟩ => show win0_1.index t (1 : Fin 2) * 1024 + 1 * q.val = Q.val; omega

set_option maxHeartbeats 400000 in
/-- The bias row's block at point t, read at (0, q): entry (block column · 1024 + q) of the row. -/
theorem blk2_at (hB : (V c main_v3 : (⟨S1x4096, .f32⟩ : BufTy).Contents (Elt Ideal)) = Bv) (t : Fin cfg0.N)
    (q : Fin 1024) (Q : Fin 4096) (hQ : Q.val = win0_3.index t (1 : Fin 2) * 1024 + q.val) :
    (iblk0 V c 2 t : FVec Ideal S1x1024 .f32) (ix2 (0 : Fin 1) q) = Bv (ix2 (0 : Fin 1) Q) := by
  obtain ⟨-, -, -, -, e4, e5, -⟩ := idx_facts t
  unfold iblk0
  rw [View.read_apply]
  show (V c main_v3 : (⟨S1x4096, .f32⟩ : BufTy).Contents (Elt Ideal)) _ = Bv _
  rw [hB]
  congr 1
  funext a
  apply Fin.ext
  match a with
  | ⟨0, _⟩ => show win0_2.index t (0 : Fin 2) * 1 + 1 * 0 = 0; omega
  | ⟨1, _⟩ => show win0_2.index t (1 : Fin 2) * 1024 + 1 * q.val = Q.val; omega

set_option maxHeartbeats 400000 in
/-- WHAT POINT t WRITES BACK is block t of silu(X·W + row bias) of the three arrays as the region finds them. -/
theorem flushed_eq (hX : (V c main_v1 : (⟨S4096x1024, .bf16⟩ : BufTy).Contents (Elt Ideal)) = X)
    (hW : (V c main_v2 : (⟨S1024x4096, .bf16⟩ : BufTy).Contents (Elt Ideal)) = Wm)
    (hB : (V c main_v3 : (⟨S1x4096, .f32⟩ : BufTy).Contents (Elt Ideal)) = Bv) (t : Fin cfg0.N) :
    (dat0 (F := Ideal) V c).flushed 3 t = ((cfg0.win 3).blk t).view.read (Elt Ideal) (actG X Wm Bv) := by
  show (cfg0.win 3).cut (grid0.coords t) ((dat0 (F := Ideal) V c).after 3 t) = _
  rw [after0_3]
  unfold out0_3
  rw [View.canon_unit_zero hz]
  simp only [View.ld_unit_zero (S := S512x1024) hz, View.ld_unit_zero (S := S1024x1024) hz, View.ld_unit_zero (S := S1x1024) hz]
  funext j
  have hj0 : (j 0).val < 512 := (j 0).isLt
  have hj1 : (j 1).val < 1024 := (j 1).isLt
  have hx : (cfg0.win 3).xinj (grid0.coords t) j = ix2 (⟨(j 0).val, hj0⟩ : Fin 512) (⟨(j 1).val, hj1⟩ : Fin 1024) :=
    funext fun a => match a with
      | ⟨0, _⟩ => rfl
      | ⟨1, _⟩ => rfl
  show k0_pay1 (F := Ideal) (iblk0 V c 0 t) (iblk0 V c 1 t) (iblk0 V c 2 t) ((cfg0.win 3).xinj (grid0.coords t) j)
    = actAt X Wm Bv ((((cfg0.win 3).blk t).view.emb j) 0) ((((cfg0.win 3).blk t).view.emb j) 1)
  refine (congrArg (k0_pay1 (F := Ideal) (iblk0 V c 0 t) (iblk0 V c 1 t) (iblk0 V c 2 t)) hx).trans ?_
  refine (pay_at (iblk0 V c 0 t) (iblk0 V c 1 t) (iblk0 V c 2 t) ⟨(j 0).val, hj0⟩ ⟨(j 1).val, hj1⟩).trans ?_
  have hP : ((((cfg0.win 3).blk t).view.emb j) 0).val = win0_3.index t (0 : Fin 2) * 512 + (j 0).val := by
    show win0_3.index t (0 : Fin 2) * 512 + 1 * (j 0).val = _; omega
  have hQ : ((((cfg0.win 3).blk t).view.emb j) 1).val = win0_3.index t (1 : Fin 2) * 1024 + (j 1).val := by
    show win0_3.index t (1 : Fin 2) * 1024 + 1 * (j 1).val = _; omega
  exact actAt_congr _ _ _ X Wm Bv _ _ _ _
    (fun k => blk0_at V c X hX t _ k _ hP) (fun k => blk1_at V c Wm hW t k _ _ hQ) (blk2_at V c Bv hB t _ _ hQ)

/-- An index of the array is in point t's block iff each coordinate is in the block's range on its axis. -/
theorem mem_blk (t : Fin cfg0.N) (i : S4096x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4).slice (win0_3.rect t)).set ↔ _
  rw [View.set_slice_whole, Rect.mem_set_unit]
  exact Iff.rfl

/-- The output's blocks cover the array: row r is in row block r / 512, column s in column block s / 1024. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY region 0 leaves: silu(X·W + row bias) of the three arrays as the region finds them. -/
theorem arr_eq (hX : (V c main_v1 : (⟨S4096x1024, .bf16⟩ : BufTy).Contents (Elt Ideal)) = X)
    (hW : (V c main_v2 : (⟨S1024x4096, .bf16⟩ : BufTy).Contents (Elt Ideal)) = Wm)
    (hB : (V c main_v3 : (⟨S1x4096, .f32⟩ : BufTy).Contents (Elt Ideal)) = Bv) :
    ((dat0 (F := Ideal) V c).arrAt 3 cfg0.N : (⟨S4096x4096, .f32⟩ : BufTy).Contents (Elt Ideal)) = actG X Wm Bv :=
  (dat0 (F := Ideal) V c).arrAt_eq_of_cover 3 (actG X Wm Bv) (fun t _ => flushed_eq V c X Wm Bv hX hW hB t) cover

end Blocks

/-! ## The reference's stage is the same array, reshaped -/

set_option maxHeartbeats 400000 in
/-- The reference's stage at (a, r, q): silu of row (a, r) of x times column q of W, plus entry q of b. -/
theorem ref_at (x : (⟨S2x2048x1024, .f32⟩ : BufTy).Contents (Elt Ideal)) (W : (⟨S1024x4096, .f32⟩ : BufTy).Contents (Elt Ideal))
    (b : (⟨S4096, .f32⟩ : BufTy).Contents (Elt Ideal)) (a : Fin 2) (r : Fin 2048) (q : Fin 4096) :
    Cert.ReferenceIdeal.Read.val_main_v4 (F := Ideal) x W b (ix3 a r q)
      = silu ((∑ k : Fin 1024, x (ix3 a r k) * W (ix2 k q)) + b (ix1 q)) := by
  have el : ∀ k : Fin 1024, Cert.ReferenceIdeal.Read.lidx_main_v0 (ix3 a r q) k = ix3 a r k := fun k => funext fun d => match d with
    | ⟨0, _⟩ => rfl
    | ⟨1, _⟩ => rfl
    | ⟨2, _⟩ => rfl
  have er : ∀ k : Fin 1024, Cert.ReferenceIdeal.Read.ridx_main_v0 (ix3 a r q) k = ix2 k q := fun k => funext fun d => match d with
    | ⟨0, _⟩ => rfl
    | ⟨1, _⟩ => rfl
  have eb : Cert.ReferenceIdeal.Read.idx_main_v1 (Cert.ReferenceIdeal.Read.idx_main_v2 (ix3 a r q)) = ix1 q := funext fun d => match d with
    | ⟨0, _⟩ => rfl
  rw [Cert.ReferenceIdeal.Read.val_main_v4_apply, Cert.ReferenceIdeal.Read.val_main_call0_v5_apply, Cert.ReferenceIdeal.Read.val_main_call0_v4_apply, Cert.ReferenceIdeal.Read.val_main_call0_cst_0_apply,
    Cert.ReferenceIdeal.Read.val_main_call0_v3_apply, Cert.ReferenceIdeal.Read.val_main_call0_v2_apply, Cert.ReferenceIdeal.Read.val_main_call0_cst_apply, Cert.ReferenceIdeal.Read.val_main_call0_v1_apply,
    Cert.ReferenceIdeal.Read.val_main_call0_v0_apply, Cert.ReferenceIdeal.Read.val_main_v3_apply, Cert.ReferenceIdeal.Read.val_main_v2_apply, Cert.ReferenceIdeal.Read.val_main_v1_apply, Cert.ReferenceIdeal.Read.val_main_v0_apply]
  simp only [el, er, eb]
  unfold silu
  rw [← Cert.LibLogisticTanh.exp_spelling_f32]
  rfl

set_option maxHeartbeats 400000 in
/-- silu(X·W + row bias) over the re-laid-out arguments, reshaped to [2, 2048, 4096], is the reference's stage:
    row a · 2048 + r of the merged x is row (a, r) of x; the narrowings to bf16 are the identity on the extended
    reals; the row [1, 4096] holds b. -/
theorem ref_eq (x : (⟨S2x2048x1024, .f32⟩ : BufTy).Contents (Elt Ideal)) (W : (⟨S1024x4096, .f32⟩ : BufTy).Contents (Elt Ideal))
    (b : (⟨S4096, .f32⟩ : BufTy).Contents (Elt Ideal)) :
    shapeCast S2x2048x4096
        (actG (truncf (F := Ideal) (s := S4096x1024) (φ := .f32) .bf16 (shapeCast S4096x1024 x shapeCasts_S2x2048x1024_S4096x1024) bitsLt_bf16_f32)
          (truncf (F := Ideal) (s := S1024x4096) (φ := .f32) .bf16 W bitsLt_bf16_f32)
          (shapeCast S1x4096 b shapeCasts_S4096_S1x4096))
        shapeCasts_S4096x4096_S2x2048x4096
      = Cert.ReferenceIdeal.Read.val_main_v4 (F := Ideal) x W b := by
  funext i
  obtain ⟨a, r, q, rfl⟩ : ∃ (a : Fin 2) (r : Fin 2048) (q : Fin 4096), i = ix3 a r q := ⟨i 0, i 1, i 2, eq_ix3 i⟩
  have hP : a.val * 2048 + r.val < 4096 := by have := a.isLt; have := r.isLt; omega
  rw [ref_at, Cert.Lib.Rank4Layout.splitFirst_apply _ shapeCasts_S4096x4096_S2x2048x4096 a r q ⟨a.val * 2048 + r.val, hP⟩ rfl]
  show actAt _ _ _ (⟨a.val * 2048 + r.val, hP⟩ : Fin 4096) q = _
  unfold actAt
  have hx : ∀ k : Fin 1024, shapeCast S4096x1024 x shapeCasts_S2x2048x1024_S4096x1024 (ix2 (⟨a.val * 2048 + r.val, hP⟩ : Fin 4096) k) = x (ix3 a r k) :=
    fun k => Cert.Lib.Rank4Layout.mergeFirst_apply x shapeCasts_S2x2048x1024_S4096x1024 ⟨a.val * 2048 + r.val, hP⟩ k a r rfl
  have hb : shapeCast S1x4096 b shapeCasts_S4096_S1x4096 (ix2 (0 : Fin 1) q) = b (ix1 q) :=
    shapeCast_apply b shapeCasts_S4096_S1x4096 (ix2 (0 : Fin 1) q) (ix1 q) (by
      rw [Shape.rowMajor_val_one, Shape.rowMajor_val_two]
      show q.val = 0 * 4096 + q.val
      omega)
  rw [hb]
  simp only [truncf_apply, hx]

end Act

/-! ## The region's value -/

/-- THE ARRAY REGION 0 LEAVES, reshaped to [2, 2048, 4096], is the reference's silu(einsum(x, W) + b), given that the
    region's three input arrays are the re-laid-out x, W and b. -/
theorem region0_value
    (V : (c : Dev nD) → (b : Ref sig .tc) → Buf (Elt Ideal) ((c : Thread nD τ).loc b)) (c : Dev nD)
    (x : (⟨S2x2048x1024, .f32⟩ : BufTy).Contents (Elt Ideal)) (W : (⟨S1024x4096, .f32⟩ : BufTy).Contents (Elt Ideal))
    (b : (⟨S4096, .f32⟩ : BufTy).Contents (Elt Ideal))
    (h1 : (V c main_v1 : (⟨S4096x1024, .bf16⟩ : BufTy).Contents (Elt Ideal)) = truncf (F := Ideal) (s := S4096x1024) (φ := .f32) .bf16 (shapeCast S4096x1024 x shapeCasts_S2x2048x1024_S4096x1024) bitsLt_bf16_f32)
    (h2 : (V c main_v2 : (⟨S1024x4096, .bf16⟩ : BufTy).Contents (Elt Ideal)) = truncf (F := Ideal) (s := S1024x4096) (φ := .f32) .bf16 W bitsLt_bf16_f32)
    (h3 : (V c main_v3 : (⟨S1x4096, .f32⟩ : BufTy).Contents (Elt Ideal)) = shapeCast S1x4096 b shapeCasts_S4096_S1x4096) :
    shapeCast S2x2048x4096 ((dat0 (F := Ideal) V c).arrAt 3 cfg0.N : (⟨S4096x4096, .f32⟩ : BufTy).Contents (Elt Ideal)) shapeCasts_S4096x4096_S2x2048x4096
      = Cert.ReferenceIdeal.Read.val_main_v4 (F := Ideal) x W b := by
  rw [Act.arr_eq V c _ _ _ h1 h2 h3]
  exact Act.ref_eq x W b

end Cert.Bridge

end
-- ==== Proof.LibAttentionDots.lean ====
/-
  Contraction sums of the matrix products of an attention layer, for any sizes, on the extended reals.

  * A rank-2 product whose right operand is contracted on its LAST axis, `[A,K] × [B,K] → [A,B]`: at output index
    (p, q) the sum over k of L (p, k) * R (q, k); with it a matmul into the zero accumulator and a host dot_general.
  * A projection `[B,S,D] × [N,D] → [B,S,N]` (einsum `bsd,nd→bsn`): at (b, s, n) the sum over k of
    L (b, s, k) * R (n, k).
  * The scores `[B,H,Q,D] × [B,H,K,D] → [B,H,Q,K]` with batch axes 0 and 1 (einsum `bhqd,bhkd→bhqk`): at
    (b, h, q, k) the sum over d of L (b, h, q, d) * R (b, h, k, d).
  * The weighted values `[B,H,Q,K] × [B,H,K,D] → [B,H,Q,D]` with batch axes 0 and 1 (einsum `bhqk,bhkd→bhqd`): at
    (b, h, q, d) the sum over k of L (b, h, q, k) * R (b, h, k, d).

  Each takes the dimension numbers as a record with six list hypotheses (closed by `rfl` on a printed record).
-/
import Idealize.ShloMosaic.PureOps.Ideal.Laws
import Idealize.ShloMosaic.Lib.ValueIdx

noncomputable section

open scoped BigOperators

namespace Cert.Lib.AttentionDots

open Idealize.ShloMosaic Idealize.ShloMosaic.ValueIdx

/-! ## Rank 2, the right operand contracted on its last axis -/

theorem trhs_idx {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 q k := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- The contraction sum at (p, q): the sum over k of L (p, k) * R (q, k). -/
theorem trhs_sum {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (L : (⟨2, ![A, K]⟩ : Shape).Idx → EReal) (R : (⟨2, ![B, K]⟩ : Shape).Idx → EReal) (p : Fin A) (q : Fin B) :
    ∑ κ : d.contr.Idx, L (d.lhsIdx (ix2 p q) κ) * R (d.rhsIdx (ix2 p q) κ) = ∑ k : Fin K, L (ix2 p k) * R (ix2 q k) := by
  obtain ⟨hr, hs, h⟩ := trhs_idx d hlc hrc hln hrn hlb hrb
  rw [← Equiv.sum_comp (contrEquiv1 d K hr hs).symm]
  exact Finset.sum_congr rfl fun k _ => by rw [(h p q k).1, (h p q k).2]

/-- A matmul of these dimension numbers into the zero accumulator, read at (p, q). -/
theorem matmul_zero_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q)
      = ∑ k : Fin K, lhs (ix2 p k) * rhs (ix2 q k) :=
  (Ideal.matmul_constant_zero_apply d prec lhs rhs (ix2 p q)).trans (trhs_sum d hlc hrc hln hrn hlb hrb lhs rhs p q)

/-- A host dot_general of these dimension numbers, read at (p, q). -/
theorem dotGeneral_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![A, K]⟩ φ₁)
    (rhs : FVec Ideal ⟨2, ![B, K]⟩ φ₂) (p : Fin A) (q : Fin B) :
    FloatOps.dotGeneral d prec sched lhs rhs (ix2 p q) = ∑ k : Fin K, lhs (ix2 p k) * rhs (ix2 q k) :=
  (Ideal.dotGeneral_apply d prec sched lhs rhs (ix2 p q)).trans (trhs_sum d hlc hrc hln hrn hlb hrb lhs rhs p q)

/-! ## The projection `bsd,nd→bsn` -/

theorem proj_idx {B S D N : Nat} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = []) :
    ∃ (hr : d.contr.rank = 1) (hs : d.contr.size ⟨0, by omega⟩ = D), ∀ (b : Fin B) (s : Fin S) (n : Fin N) (k : Fin D),
      d.lhsIdx (ix3 b s n) ((contrEquiv1 d D hr hs).symm k) = ix3 b s k ∧
      d.rhsIdx (ix3 b s n) ((contrEquiv1 d D hr hs).symm k) = ix2 n k := by
  obtain ⟨lc, rc, ln, rn, lb, rb, wf⟩ := d
  simp only at hlc hrc hln hrn hlb hrb
  subst hlc hrc hln hrn hlb hrb
  refine ⟨rfl, rfl, fun b s n k => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl

/-- A host dot_general `bsd,nd→bsn`, read at (b, s, n): the sum over k of L (b, s, k) * R (n, k). -/
theorem dotGeneral_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![B, S, D]⟩ φ₁)
    (rhs : FVec Ideal ⟨2, ![N, D]⟩ φ₂) (b : Fin B) (s : Fin S) (n : Fin N) :
    FloatOps.dotGeneral d prec sched lhs rhs (ix3 b s n) = ∑ k : Fin D, lhs (ix3 b s k) * rhs (ix2 n k) := by
  obtain ⟨hr, hs, h⟩ := proj_idx d hlc hrc hln hrn hlb hrb
  refine (Ideal.dotGeneral_apply d prec sched lhs rhs (ix3 b s n)).trans ?_
  rw [← Equiv.sum_comp (contrEquiv1 d D hr hs).symm]
  exact Finset.sum_congr rfl fun k _ => by rw [(h b s n k).1, (h b s n k).2]

/-! ## The scores `bhqd,bhkd→bhqk` -/

theorem scores_idx {B H Q K D : Nat} (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1]) :
    ∃ (hr : d.contr.rank = 1) (hs : d.contr.size ⟨0, by omega⟩ = D),
      ∀ (b : Fin B) (h : Fin H) (q : Fin Q) (k : Fin K) (e : Fin D),
      d.lhsIdx (ix4 b h q k) ((contrEquiv1 d D hr hs).symm e) = ix4 b h q e ∧
      d.rhsIdx (ix4 b h q k) ((contrEquiv1 d D hr hs).symm e) = ix4 b h k e := by
  obtain ⟨lc, rc, ln, rn, lb, rb, wf⟩ := d
  simp only at hlc hrc hln hrn hlb hrb
  subst hlc hrc hln hrn hlb hrb
  refine ⟨rfl, rfl, fun b h q k e => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqd,bhkd→bhqk`, read at (b, h, q, k): the sum over e of L (b, h, q, e) * R (b, h, k, e). -/
theorem dotGeneral_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (sched : HostSchedule) (lhs : FVec Ideal ⟨4, ![B, H, Q, D]⟩ φ₁)
    (rhs : FVec Ideal ⟨4, ![B, H, K, D]⟩ φ₂) (b : Fin B) (h : Fin H) (q : Fin Q) (k : Fin K) :
    FloatOps.dotGeneral d prec sched lhs rhs (ix4 b h q k) = ∑ e : Fin D, lhs (ix4 b h q e) * rhs (ix4 b h k e) := by
  obtain ⟨hr, hs, hx⟩ := scores_idx d hlc hrc hln hrn hlb hrb
  refine (Ideal.dotGeneral_apply d prec sched lhs rhs (ix4 b h q k)).trans ?_
  rw [← Equiv.sum_comp (contrEquiv1 d D hr hs).symm]
  exact Finset.sum_congr rfl fun e _ => by rw [(hx b h q k e).1, (hx b h q k e).2]

/-! ## The weighted values `bhqk,bhkd→bhqd` -/

theorem values_idx {B H Q K D : Nat} (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1]) :
    ∃ (hr : d.contr.rank = 1) (hs : d.contr.size ⟨0, by omega⟩ = K),
      ∀ (b : Fin B) (h : Fin H) (q : Fin Q) (e : Fin D) (k : Fin K),
      d.lhsIdx (ix4 b h q e) ((contrEquiv1 d K hr hs).symm k) = ix4 b h q k ∧
      d.rhsIdx (ix4 b h q e) ((contrEquiv1 d K hr hs).symm k) = ix4 b h k e := by
  obtain ⟨lc, rc, ln, rn, lb, rb, wf⟩ := d
  simp only at hlc hrc hln hrn hlb hrb
  subst hlc hrc hln hrn hlb hrb
  refine ⟨rfl, rfl, fun b h q e k => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqk,bhkd→bhqd`, read at (b, h, q, e): the sum over k of L (b, h, q, k) * R (b, h, k, e). -/
theorem dotGeneral_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (sched : HostSchedule) (lhs : FVec Ideal ⟨4, ![B, H, Q, K]⟩ φ₁)
    (rhs : FVec Ideal ⟨4, ![B, H, K, D]⟩ φ₂) (b : Fin B) (h : Fin H) (q : Fin Q) (e : Fin D) :
    FloatOps.dotGeneral d prec sched lhs rhs (ix4 b h q e) = ∑ k : Fin K, lhs (ix4 b h q k) * rhs (ix4 b h k e) := by
  obtain ⟨hr, hs, hx⟩ := values_idx d hlc hrc hln hrn hlb hrb
  refine (Ideal.dotGeneral_apply d prec sched lhs rhs (ix4 b h q e)).trans ?_
  rw [← Equiv.sum_comp (contrEquiv1 d K hr hs).symm]
  exact Finset.sum_congr rfl fun k _ => by rw [(hx b h q e k).1, (hx b h q e k).2]

/-! ## The same, spelled as programs print them (`matmul`, `Host.dotGeneral`): the forms a rewrite finds -/

theorem matmul_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    matmul d prec lhs rhs (constant ⟨2, ![A, B]⟩ .f32 0x00000000#32) (ix2 p q) = ∑ k : Fin K, lhs (ix2 p k) * rhs (ix2 q k) :=
  matmul_zero_trhs d hlc hrc hln hrn hlb hrb prec lhs rhs p q

theorem hostDot_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    Host.dotGeneral d prec lhs rhs (ix2 p q) = ∑ k : Fin K, lhs (ix2 p k) * rhs (ix2 q k) :=
  dotGeneral_trhs d hlc hrc hln hrn hlb hrb prec .single lhs rhs p q

theorem hostDot_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (lhs : FVec Ideal ⟨3, ![B, S, D]⟩ φ₁) (rhs : FVec Ideal ⟨2, ![N, D]⟩ φ₂)
    (b : Fin B) (s : Fin S) (n : Fin N) :
    Host.dotGeneral d prec lhs rhs (ix3 b s n) = ∑ k : Fin D, lhs (ix3 b s k) * rhs (ix2 n k) :=
  dotGeneral_proj d hlc hrc hln hrn hlb hrb prec .single lhs rhs b s n

theorem hostDot_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (lhs : FVec Ideal ⟨4, ![B, H, Q, D]⟩ φ₁) (rhs : FVec Ideal ⟨4, ![B, H, K, D]⟩ φ₂)
    (b : Fin B) (h : Fin H) (q : Fin Q) (k : Fin K) :
    Host.dotGeneral d prec lhs rhs (ix4 b h q k) = ∑ e : Fin D, lhs (ix4 b h q e) * rhs (ix4 b h k e) :=
  dotGeneral_scores d hlc hrc hln hrn hlb hrb prec .single lhs rhs b h q k

theorem hostDot_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (lhs : FVec Ideal ⟨4, ![B, H, Q, K]⟩ φ₁) (rhs : FVec Ideal ⟨4, ![B, H, K, D]⟩ φ₂)
    (b : Fin B) (h : Fin H) (q : Fin Q) (e : Fin D) :
    Host.dotGeneral d prec lhs rhs (ix4 b h q e) = ∑ k : Fin K, lhs (ix4 b h q k) * rhs (ix4 b h k e) :=
  dotGeneral_values d hlc hrc hln hrn hlb hrb prec .single lhs rhs b h q e

end Cert.Lib.AttentionDots

end
-- ==== Proof.LibRank4Broadcast.lean ====
/-
  Rank-4 layout operations read at an index given by its four coordinates, for any sizes.

  * Broadcasts of a rank-4 array along one or several unit axes: [a,b,1,d] along axis 2, [a,1,c,d] along axis 1 and
    [1,1,1,d] along the three leading axes, each to [a,b,c,d]: the entry at (p, q, r, t) is the operand's entry with 0 on
    every unit axis.
  * The reshapes that add those unit axes: [a,b,d] viewed as [a,b,1,d], [a,c,d] viewed as [a,1,c,d], a vector [d] viewed as
    [1,1,1,d], and a vector [b] viewed as [1,b].
  * The reshapes between a matrix [m,d] and a rank-4 array [a,b,c,d] with m = a·b·c (a row-major re-indexing): stated with
    the merged row i and the three split coordinates related by a hypothesis i = (p·b + q)·c + r, so no division appears.
  * Over the extended reals, the sum of a rank-4 array along its last axis started from the zero word is at (p, q, r) the
    finite sum over t of the entries (p, q, r, t).
-/
import Idealize.ShloMosaic.Lib.ValueIdx
import Idealize.ShloMosaic.Lib.Pipeline.Value
import Idealize.ShloMosaic.PureOps.Ideal.Laws

noncomputable section

open scoped BigOperators

namespace Cert.Lib.Rank4Broadcast

open Idealize.ShloMosaic Idealize.ShloMosaic.ValueIdx

variable {α : Type}

/-- A coordinate a broadcast keeps: itself, or 0 when the axis has extent one (then it is 0 anyway). -/
theorem keep {a : Nat} (p : Fin a) : p.val = if a = 1 then 0 else p.val := by
  by_cases ha : a = 1
  · rw [if_pos ha]; have := p.isLt; omega
  · rw [if_neg ha]

/-! ## Broadcasts along unit axes -/

/-- [a,b,1,d] along axis 2: entry (p, q, r, t) is the operand's entry (p, q, 0, t). -/
theorem bcastAxis2_apply {a b c d : Nat} (v : (⟨4, ![a, b, 1, d]⟩ : Shape).Idx → α)
    (h : (⟨4, ![a, b, 1, d]⟩ : Shape).Broadcasts ⟨4, ![a, b, c, d]⟩) (p : Fin a) (q : Fin b) (r : Fin c) (t : Fin d) :
    broadcastTo (⟨4, ![a, b, c, d]⟩ : Shape) v h (ix4 p q r t) = v (ix4 p q (0 : Fin 1) t) :=
  broadcastTo_apply v h (ix4 p q r t) (ix4 p q (0 : Fin 1) t) (fun x => match x with
    | ⟨0, _⟩ => keep p
    | ⟨1, _⟩ => keep q
    | ⟨2, _⟩ => by show 0 = if (1 : Nat) = 1 then 0 else r.val; rw [if_pos rfl]
    | ⟨3, _⟩ => keep t)

/-- [a,1,c,d] along axis 1: entry (p, q, r, t) is the operand's entry (p, 0, r, t). -/
theorem bcastAxis1_apply {a b c d : Nat} (v : (⟨4, ![a, 1, c, d]⟩ : Shape).Idx → α)
    (h : (⟨4, ![a, 1, c, d]⟩ : Shape).Broadcasts ⟨4, ![a, b, c, d]⟩) (p : Fin a) (q : Fin b) (r : Fin c) (t : Fin d) :
    broadcastTo (⟨4, ![a, b, c, d]⟩ : Shape) v h (ix4 p q r t) = v (ix4 p (0 : Fin 1) r t) :=
  broadcastTo_apply v h (ix4 p q r t) (ix4 p (0 : Fin 1) r t) (fun x => match x with
    | ⟨0, _⟩ => keep p
    | ⟨1, _⟩ => by show 0 = if (1 : Nat) = 1 then 0 else q.val; rw [if_pos rfl]
    | ⟨2, _⟩ => keep r
    | ⟨3, _⟩ => keep t)

/-- [1,1,1,d] along the three leading axes: entry (p, q, r, t) is the operand's entry (0, 0, 0, t). -/
theorem bcastLead_apply {a b c d : Nat} (v : (⟨4, ![1, 1, 1, d]⟩ : Shape).Idx → α)
    (h : (⟨4, ![1, 1, 1, d]⟩ : Shape).Broadcasts ⟨4, ![a, b, c, d]⟩) (p : Fin a) (q : Fin b) (r : Fin c) (t : Fin d) :
    broadcastTo (⟨4, ![a, b, c, d]⟩ : Shape) v h (ix4 p q r t) = v (ix4 (0 : Fin 1) (0 : Fin 1) (0 : Fin 1) t) :=
  broadcastTo_apply v h (ix4 p q r t) (ix4 (0 : Fin 1) (0 : Fin 1) (0 : Fin 1) t) (fun x => match x with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show 0 = if (1 : Nat) = 1 then 0 else r.val; rw [if_pos rfl]
    | ⟨3, _⟩ => keep t)

/-! ## Reshapes that add unit axes -/

/-- [a,b,d] viewed as [a,b,1,d]: entry (p, q, z, t) of the view is entry (p, q, t). -/
theorem castAddAxis2_apply {a b d : Nat} (v : (⟨3, ![a, b, d]⟩ : Shape).Idx → α)
    (h : (⟨3, ![a, b, d]⟩ : Shape).ShapeCasts ⟨4, ![a, b, 1, d]⟩) (p : Fin a) (q : Fin b) (z : Fin 1) (t : Fin d) :
    shapeCast (⟨4, ![a, b, 1, d]⟩ : Shape) v h (ix4 p q z t) = v (ix3 p q t) := by
  refine shapeCast_apply v h (ix4 p q z t) (ix3 p q t) ?_
  rw [Shape.rowMajor_val_three, Shape.rowMajor_val_four]
  show (p.val * b + q.val) * d + t.val = ((p.val * b + q.val) * 1 + z.val) * d + t.val
  have hz : z.val = 0 := by have := z.isLt; omega
  rw [hz, Nat.mul_one, Nat.add_zero]

/-- [a,c,d] viewed as [a,1,c,d]: entry (p, z, r, t) of the view is entry (p, r, t). -/
theorem castAddAxis1_apply {a c d : Nat} (v : (⟨3, ![a, c, d]⟩ : Shape).Idx → α)
    (h : (⟨3, ![a, c, d]⟩ : Shape).ShapeCasts ⟨4, ![a, 1, c, d]⟩) (p : Fin a) (z : Fin 1) (r : Fin c) (t : Fin d) :
    shapeCast (⟨4, ![a, 1, c, d]⟩ : Shape) v h (ix4 p z r t) = v (ix3 p r t) := by
  refine shapeCast_apply v h (ix4 p z r t) (ix3 p r t) ?_
  rw [Shape.rowMajor_val_three, Shape.rowMajor_val_four]
  show (p.val * c + r.val) * d + t.val = ((p.val * 1 + z.val) * c + r.val) * d + t.val
  have hz : z.val = 0 := by have := z.isLt; omega
  rw [hz, Nat.mul_one, Nat.add_zero]

/-- A vector [d] viewed as [1,1,1,d]: entry (z0, z1, z2, t) of the view is entry t. -/
theorem castVecLead_apply {d : Nat} (v : (⟨1, ![d]⟩ : Shape).Idx → α)
    (h : (⟨1, ![d]⟩ : Shape).ShapeCasts ⟨4, ![1, 1, 1, d]⟩) (z0 z1 z2 : Fin 1) (t : Fin d) :
    shapeCast (⟨4, ![1, 1, 1, d]⟩ : Shape) v h (ix4 z0 z1 z2 t) = v (ix1 t) := by
  refine shapeCast_apply v h (ix4 z0 z1 z2 t) (ix1 t) ?_
  rw [Shape.rowMajor_val_one, Shape.rowMajor_val_four]
  show t.val = ((z0.val * 1 + z1.val) * 1 + z2.val) * d + t.val
  have h0 : z0.val = 0 := by have := z0.isLt; omega
  have h1 : z1.val = 0 := by have := z1.isLt; omega
  have h2 : z2.val = 0 := by have := z2.isLt; omega
  rw [h0, h1, h2]; simp

/-- A vector [b] viewed as [1,b]: entry (z, q) of the view is entry q. -/
theorem castVecRow_apply {b : Nat} (v : (⟨1, ![b]⟩ : Shape).Idx → α)
    (h : (⟨1, ![b]⟩ : Shape).ShapeCasts ⟨2, ![1, b]⟩) (z : Fin 1) (q : Fin b) :
    shapeCast (⟨2, ![1, b]⟩ : Shape) v h (ix2 z q) = v (ix1 q) := by
  refine shapeCast_apply v h (ix2 z q) (ix1 q) ?_
  rw [Shape.rowMajor_val_one, Shape.rowMajor_val_two]
  show q.val = z.val * b + q.val
  have hz : z.val = 0 := by have := z.isLt; omega
  rw [hz, Nat.zero_mul, Nat.zero_add]

/-- A row [1,b] broadcast over a rows: entry (p, q) is the operand's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun x => match x with
    | ⟨0, _⟩ => by show 0 = if (1 : Nat) = 1 then 0 else p.val; rw [if_pos rfl]
    | ⟨1, _⟩ => keep q)

/-! ## Reshapes between a matrix and a rank-4 array -/

/-- The first axis split in three: entry (p, q, r, t) of the result is entry (i, t) of the matrix, i = (p·b + q)·c + r. -/
theorem splitFirst3_apply {a b c d m : Nat} (v : (⟨2, ![m, d]⟩ : Shape).Idx → α)
    (h : (⟨2, ![m, d]⟩ : Shape).ShapeCasts ⟨4, ![a, b, c, d]⟩)
    (p : Fin a) (q : Fin b) (r : Fin c) (t : Fin d) (i : Fin m) (hi : i.val = (p.val * b + q.val) * c + r.val) :
    shapeCast (⟨4, ![a, b, c, d]⟩ : Shape) v h (ix4 p q r t) = v (ix2 i t) := by
  refine shapeCast_apply v h (ix4 p q r t) (ix2 i t) ?_
  rw [Shape.rowMajor_val_four, Shape.rowMajor_val_two]
  show i.val * d + t.val = ((p.val * b + q.val) * c + r.val) * d + t.val
  rw [hi]

/-- The first three axes merged: entry (i, t) of the result is entry (p, q, r, t) of the array, i = (p·b + q)·c + r. -/
theorem mergeFirst3_apply {a b c d m : Nat} (v : (⟨4, ![a, b, c, d]⟩ : Shape).Idx → α)
    (h : (⟨4, ![a, b, c, d]⟩ : Shape).ShapeCasts ⟨2, ![m, d]⟩)
    (i : Fin m) (t : Fin d) (p : Fin a) (q : Fin b) (r : Fin c) (hi : i.val = (p.val * b + q.val) * c + r.val) :
    shapeCast (⟨2, ![m, d]⟩ : Shape) v h (ix2 i t) = v (ix4 p q r t) := by
  refine shapeCast_apply v h (ix2 i t) (ix4 p q r t) ?_
  rw [Shape.rowMajor_val_four, Shape.rowMajor_val_two]
  show ((p.val * b + q.val) * c + r.val) * d + t.val = i.val * d + t.val
  rw [hi]

/-! ## The sum along the last axis -/

/-- Over the extended reals, the sum of a rank-4 array along its last axis started from the zero word: entry (p, q, r) is
    the finite sum over t of the entries (p, q, r, t). -/
theorem sumLast4_apply {a b c d : Nat} (v : FVec Ideal (⟨4, ![a, b, c, d]⟩ : Shape) .f32)
    (h : (⟨4, ![a, b, c, d]⟩ : Shape).Reduces [(3 : Fin 4)] ⟨3, ![a, b, c]⟩) (hφ : FKind.Formats .f32)
    (hacc : (0x00000000#32 : BitVec 32) = FKind.add.neutral .f32 hφ) (p : Fin a) (q : Fin b) (r : Fin c) :
    multiReduction (F := Ideal) .add [(3 : Fin 4)] (⟨3, ![a, b, c]⟩ : Shape) v 0x00000000#32 h hφ hacc (ix3 p q r)
      = ∑ t : Fin d, v (ix4 p q r t) := by
  refine (Ideal.multiReduction_add_single v 0x00000000#32 h hφ hacc (ix3 p q r)).trans ?_
  show ∑ t : Fin d, v (h.lift (ix3 p q r) t) = ∑ t : Fin d, v (ix4 p q r t)
  refine Finset.sum_congr rfl fun t _ => congrArg v (funext fun x => Fin.ext ?_)
  match x with
  | ⟨0, _⟩ => rfl
  | ⟨1, _⟩ => rfl
  | ⟨2, _⟩ => rfl
  | ⟨3, _⟩ => rfl

end Cert.Lib.Rank4Broadcast

end
-- ==== Proof.RegionAttn.lean ====
/-
  The attention region's output array is the reference's attention stage.

  For each grid point (batch b, head n, query tile qi) the body stores the block
      (silu((q · kᵀ) · 0.125 + rb) ⊙ mask) · v,
  q the 256 query rows of the tile, k and v all 2048 key and value rows of head (b, n), rb and mask the matching 256 rows of
  the relative bias of head n and of the widened mask of batch b.  Entry (p, d) of that block is a sum over the keys k of
  silu(logit) · mask · value, the logit a sum over the 64 features.  Read through the windows' index maps, the five loaded
  blocks are rows of the whole arrays, so the stored block is the restriction to the tile of ONE whole-array function
  (attnArr); the 256 tiles cover the output array, which therefore ends holding that function.  Index by index it is the
  reference's where(M, silu(logits), 0) · V: the two contractions are the same finite sums, 1 / (1 + e^(−z)) is the
  logistic function at every extended real, and u · (mask bit widened) is u where the bit is set and 0 elsewhere
  (u · 1 = u, u · 0 = 0) with no finiteness assumption.
-/
import proofs.«160577_j35175782154742_1_alg».proof.Proof.Gen.KernelIdeal.Frame
import proofs.«160577_j35175782154742_1_alg».proof.Proof.Stages
import proofs.«160577_j35175782154742_1_alg».proof.Proof.LibPlainDot
import proofs.«160577_j35175782154742_1_alg».proof.Proof.LibAttentionDots
import proofs.«160577_j35175782154742_1_alg».proof.Proof.LibLogisticTanh
import proofs.«160577_j35175782154742_1_alg».proof.Proof.LibRank4Broadcast
import proofs.«160577_j35175782154742_1_alg».proof.Proof.LibRank4Layout
import Idealize.ShloMosaic.Lib.ValueIdx
import Idealize.ShloMosaic.Lib.Pipeline.Value
import Idealize.ShloMosaic.PureOps.Ideal.Laws

noncomputable section

open scoped BigOperators

namespace Cert.Bridge.Attn

open Idealize.ShloMosaic Idealize.ShloMosaic.TcCoe Idealize.ShloMosaic.ValueIdx Idealize.SL.Sem Cert.KernelIdeal Cert.KernelIdeal.Gen

/-! ## The attention block as one function of the whole arrays -/

/-- The logit at (b, n, r, k): the dot product of query row r and key row k of head (b, n), times the scale word, plus the
    relative bias of head n at (r, k). -/
def attnLogit (Q K : (⟨4, ![2, 16, 2048, 64]⟩ : Shape).Idx → EReal) (RB : (⟨3, ![16, 2048, 2048]⟩ : Shape).Idx → EReal)
    (b : Fin 2) (n : Fin 16) (r k : Fin 2048) : EReal :=
  (∑ e : Fin 64, Q (ix4 b n r e) * K (ix4 b n k e)) * Ideal.ofBits .f32 0x3E000000#32 + RB (ix3 n r k)

/-- The attention output at (b, n, r, d): the sum over keys k of silu(logit) · mask(b, r, k) · value(b, n, k, d). -/
def attnAt (Q K Vv : (⟨4, ![2, 16, 2048, 64]⟩ : Shape).Idx → EReal) (RB : (⟨3, ![16, 2048, 2048]⟩ : Shape).Idx → EReal)
    (MF : (⟨3, ![2, 2048, 2048]⟩ : Shape).Idx → EReal) (b : Fin 2) (n : Fin 16) (r : Fin 2048) (d : Fin 64) : EReal :=
  ∑ k : Fin 2048, attnLogit Q K RB b n r k * Ideal.logistic (attnLogit Q K RB b n r k) * MF (ix3 b r k) * Vv (ix4 b n k d)

/-- The same as a whole array. -/
def attnArr (Q K Vv : (⟨4, ![2, 16, 2048, 64]⟩ : Shape).Idx → EReal) (RB : (⟨3, ![16, 2048, 2048]⟩ : Shape).Idx → EReal)
    (MF : (⟨3, ![2, 2048, 2048]⟩ : Shape).Idx → EReal) : (⟨4, ![2, 16, 2048, 64]⟩ : Shape).Idx → EReal :=
  fun i => attnAt Q K Vv RB MF (i 0) (i 1) (i 2) (i 3)

/-! ## The body's stored block at an index -/

/-- The body's logits block [256, 2048] at (p, k), from the loaded query, key and bias blocks. -/
theorem payLogits_apply (x0 : Vec Ideal S1x1x256x64 .f32) (x1 : Vec Ideal S1x1x2048x64 .f32) (x3 : Vec Ideal S1x256x2048 .f32)
    (h0 : S1x1x256x64.ShapeCasts S256x64) (h1 : S1x1x2048x64.ShapeCasts S2048x64) (h3 : S1x256x2048.ShapeCasts S256x2048)
    (hb : FTy.bits .bf16 < FTy.bits .f32) (ht : S2048x64.Transposes [1, 0] S64x2048) (p : Fin 256) (k : Fin 2048) :
    addf (mulf (matmul dot_S256x64_S64x2048_S256x2048_1_0_0_1_n_n none (truncf (F := Ideal) .bf16 (shapeCast S256x64 x0 h0) hb)
        (transpose S64x2048 [1, 0] (truncf (F := Ideal) .bf16 (shapeCast S2048x64 x1 h1) hb) ht) (constant S256x2048 .f32 0x00000000#32))
        (broadcast S256x2048 (Scalar.ofBits (F := Ideal) .f32 0x3E000000#32))) (shapeCast S256x2048 x3 h3) (ix2 p k)
      = (∑ e : Fin 64, x0 (ix4 (0 : Fin 1) (0 : Fin 1) p e) * x1 (ix4 (0 : Fin 1) (0 : Fin 1) k e)) * Ideal.ofBits .f32 0x3E000000#32
        + x3 (ix3 (0 : Fin 1) p k) := by
  show matmul dot_S256x64_S64x2048_S256x2048_1_0_0_1_n_n none _ _ (constant S256x2048 .f32 0x00000000#32) (ix2 p k) * Ideal.ofBits .f32 0x3E000000#32
      + shapeCast S256x2048 x3 h3 (ix2 p k) = _
  rw [Cert.Lib.Rank4Layout.mergeFirst_apply x3 h3 p k (0 : Fin 1) p (by show p.val = 0 * 256 + p.val; omega)]
  refine congrArg (fun s => s * Ideal.ofBits .f32 0x3E000000#32 + x3 (ix3 (0 : Fin 1) p k)) ?_
  refine (matmul_zero_plain dot_S256x64_S64x2048_S256x2048_1_0_0_1_n_n rfl rfl rfl rfl rfl rfl none _ _ p k).trans ?_
  refine Finset.sum_congr rfl fun e _ => ?_
  show shapeCast S256x64 x0 h0 (ix2 p e) * transpose S64x2048 [1, 0] (truncf (F := Ideal) .bf16 (shapeCast S2048x64 x1 h1) hb) ht (ix2 e k) = _
  rw [transpose_apply [1, 0] _ ht (ix2 e k) (ix2 k e) (fun bx => by match bx with | ⟨0, _⟩ => rfl | ⟨1, _⟩ => rfl)]
  show shapeCast S256x64 x0 h0 (ix2 p e) * shapeCast S2048x64 x1 h1 (ix2 k e) = _
  rw [Cert.Lib.Rank4Broadcast.mergeFirst3_apply x0 h0 p e (0 : Fin 1) (0 : Fin 1) p (by show p.val = (0 * 1 + 0) * 256 + p.val; omega),
    Cert.Lib.Rank4Broadcast.mergeFirst3_apply x1 h1 k e (0 : Fin 1) (0 : Fin 1) k (by show k.val = (0 * 1 + 0) * 2048 + k.val; omega)]

/-- The body's stored block [1, 1, 256, 64] at (z0, z1, p, d), from its five loaded blocks: the sum over keys k of
    silu(logit p k) · mask (p, k) · value (k, d), the logit the dot product of query row p and key row k, scaled, plus the bias. -/
theorem pay_apply (x0 : Vec Ideal S1x1x256x64 .f32) (x1 x2 : Vec Ideal S1x1x2048x64 .f32) (x3 x4 : Vec Ideal S1x256x2048 .f32)
    (z0 z1 : Fin 1) (p : Fin 256) (d : Fin 64) :
    k1_pay1 (F := Ideal) x0 x1 x2 x3 x4 (ix4 z0 z1 p d)
      = ∑ k : Fin 2048,
          ((∑ e : Fin 64, x0 (ix4 (0 : Fin 1) (0 : Fin 1) p e) * x1 (ix4 (0 : Fin 1) (0 : Fin 1) k e)) * Ideal.ofBits .f32 0x3E000000#32
              + x3 (ix3 (0 : Fin 1) p k))
            * Ideal.logistic ((∑ e : Fin 64, x0 (ix4 (0 : Fin 1) (0 : Fin 1) p e) * x1 (ix4 (0 : Fin 1) (0 : Fin 1) k e)) * Ideal.ofBits .f32 0x3E000000#32
              + x3 (ix3 (0 : Fin 1) p k))
            * x4 (ix3 (0 : Fin 1) p k) * x2 (ix4 (0 : Fin 1) (0 : Fin 1) k d) := by
  unfold k1_pay1
  refine (Cert.Lib.Rank4Broadcast.splitFirst3_apply _ _ z0 z1 p d p
    (by show p.val = (z0.val * 1 + z1.val) * 256 + p.val; have := z0.isLt; have := z1.isLt; omega)).trans ?_
  refine (matmul_zero_plain dot_S256x2048_S2048x64_S256x64_1_0_0_1_n_n rfl rfl rfl rfl rfl rfl none _ _ p d).trans ?_
  refine Finset.sum_congr rfl fun k _ => ?_
  refine congrArg₂ (fun u v : EReal => u * v) ?_ ?_
  · refine congrArg₂ (fun u v : EReal => u * v) ?_ ?_
    · refine congrArg₂ (fun u v : EReal => u * Ideal.logistic v) ?_ ?_
      · exact payLogits_apply x0 x1 x3 _ _ _ _ _ p k
      · exact payLogits_apply x0 x1 x3 _ _ _ _ _ p k
    · exact Cert.Lib.Rank4Layout.mergeFirst_apply x4 _ p k (0 : Fin 1) p (by show p.val = 0 * 256 + p.val; omega)
  · exact Cert.Lib.Rank4Broadcast.mergeFirst3_apply x2 _ k d (0 : Fin 1) (0 : Fin 1) k (by show k.val = (0 * 1 + 0) * 2048 + k.val; omega)

/-- The same against whole arrays: when the five loaded blocks are the rows of Q, K, V, RB and the mask that head (b, n)
    and query row r name, the stored entry is the attention output at (b, n, r, d). -/
theorem pay_at (x0 : Vec Ideal S1x1x256x64 .f32) (x1 x2 : Vec Ideal S1x1x2048x64 .f32) (x3 x4 : Vec Ideal S1x256x2048 .f32)
    (Q K Vv : (⟨4, ![2, 16, 2048, 64]⟩ : Shape).Idx → EReal) (RB : (⟨3, ![16, 2048, 2048]⟩ : Shape).Idx → EReal)
    (MF : (⟨3, ![2, 2048, 2048]⟩ : Shape).Idx → EReal) (b : Fin 2) (n : Fin 16) (r : Fin 2048)
    (z0 z1 : Fin 1) (p : Fin 256) (d : Fin 64)
    (h0 : ∀ e : Fin 64, x0 (ix4 (0 : Fin 1) (0 : Fin 1) p e) = Q (ix4 b n r e))
    (h1 : ∀ (k : Fin 2048) (e : Fin 64), x1 (ix4 (0 : Fin 1) (0 : Fin 1) k e) = K (ix4 b n k e))
    (h2 : ∀ k : Fin 2048, x2 (ix4 (0 : Fin 1) (0 : Fin 1) k d) = Vv (ix4 b n k d))
    (h3 : ∀ k : Fin 2048, x3 (ix3 (0 : Fin 1) p k) = RB (ix3 n r k))
    (h4 : ∀ k : Fin 2048, x4 (ix3 (0 : Fin 1) p k) = MF (ix3 b r k)) :
    k1_pay1 (F := Ideal) x0 x1 x2 x3 x4 (ix4 z0 z1 p d) = attnAt Q K Vv RB MF b n r d := by
  rw [pay_apply]
  unfold attnAt attnLogit
  simp only [h0, h1, h2, h3, h4]

/-! ## From blocks to the array -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The printed index maps, decided over the grid: point t = (b·16 + n)·8 + qi writes block (b, n, qi, 0); the query window
    moves with it, the key and value windows follow (b, n), the bias window (n, qi), the mask window (b, qi). -/
theorem idx_facts1 : ∀ t : Fin cfg1.N,
    win1_5.index t (0 : Fin 4) = t.val / 128 ∧ win1_5.index t (1 : Fin 4) = t.val / 8 % 16
    ∧ win1_5.index t (2 : Fin 4) = t.val % 8 ∧ win1_5.index t (3 : Fin 4) = 0
    ∧ win1_0.index t (0 : Fin 4) = win1_5.index t (0 : Fin 4) ∧ win1_0.index t (1 : Fin 4) = win1_5.index t (1 : Fin 4)
    ∧ win1_0.index t (2 : Fin 4) = win1_5.index t (2 : Fin 4) ∧ win1_0.index t (3 : Fin 4) = 0
    ∧ win1_1.index t (0 : Fin 4) = win1_5.index t (0 : Fin 4) ∧ win1_1.index t (1 : Fin 4) = win1_5.index t (1 : Fin 4)
    ∧ win1_1.index t (2 : Fin 4) = 0 ∧ win1_1.index t (3 : Fin 4) = 0
    ∧ win1_2.index t (0 : Fin 4) = win1_5.index t (0 : Fin 4) ∧ win1_2.index t (1 : Fin 4) = win1_5.index t (1 : Fin 4)
    ∧ win1_2.index t (2 : Fin 4) = 0 ∧ win1_2.index t (3 : Fin 4) = 0
    ∧ win1_3.index t (0 : Fin 3) = win1_5.index t (1 : Fin 4) ∧ win1_3.index t (1 : Fin 3) = win1_5.index t (2 : Fin 4)
    ∧ win1_3.index t (2 : Fin 3) = 0
    ∧ win1_4.index t (0 : Fin 3) = win1_5.index t (0 : Fin 4) ∧ win1_4.index t (1 : Fin 3) = win1_5.index t (2 : Fin 4)
    ∧ win1_4.index t (2 : Fin 3) = 0 :=
  (by decide +kernel : ∀ t : Fin grid1.N, _)

/-- Block-read lemmas: an entry of a window's block at point t is the array's entry at block index × block size + the
    coordinate inside the block, on every axis. Stated against an index i of the output array whose first three coordinates
    are the output block's (b, n) and a row of its query tile. -/
theorem read_q (V : (c : Dev nD) → (b : Ref sig .tc) → Buf (Elt Ideal) ((c : Thread nD τ).loc b)) (c : Dev nD) (t : Fin cfg1.N)
    (i : (⟨4, ![2, 16, 2048, 64]⟩ : Shape).Idx) (p : Fin 256) (e : Fin 64)
    (h0 : (i 0).val = win1_5.index t (0 : Fin 4)) (h1 : (i 1).val = win1_5.index t (1 : Fin 4))
    (h2 : (i 2).val = win1_5.index t (2 : Fin 4) * 256 + p.val) :
    iblk1 (F := Ideal) V c 0 t (ix4 (0 : Fin 1) (0 : Fin 1) p e)
      = (V c main_v11 : (⟨4, ![2, 16, 2048, 64]⟩ : Shape).Idx → EReal) (ix4 (i 0) (i 1) (i 2) e) := by
  obtain ⟨-, -, -, -, e0, e1, e2, e3, -⟩ := idx_facts1 t
  show (V c main_v11 : (⟨4, ![2, 16, 2048, 64]⟩ : Shape).Idx → EReal) (((cfg1.win 0).blk t).view.emb (ix4 (0 : Fin 1) (0 : Fin 1) p e)) = _
  refine congrArg _ (funext fun a => Fin.ext ?_)
  match a with
  | ⟨0, _⟩ => show win1_0.index t (0 : Fin 4) * 1 + 1 * 0 = (i 0).val; omega
  | ⟨1, _⟩ => show win1_0.index t (1 : Fin 4) * 1 + 1 * 0 = (i 1).val; omega
  | ⟨2, _⟩ => show win1_0.index t (2 : Fin 4) * 256 + 1 * p.val = (i 2).val; omega
  | ⟨3, _⟩ => show win1_0.index t (3 : Fin 4) * 64 + 1 * e.val = e.val; omega

theorem read_k (V : (c : Dev nD) → (b : Ref sig .tc) → Buf (Elt Ideal) ((c : Thread nD τ).loc b)) (c : Dev nD) (t : Fin cfg1.N)
    (i : (⟨4, ![2, 16, 2048, 64]⟩ : Shape).Idx) (k : Fin 2048) (e : Fin 64)
    (h0 : (i 0).val = win1_5.index t (0 : Fin 4)) (h1 : (i 1).val = win1_5.index t (1 : Fin 4)) :
    iblk1 (F := Ideal) V c 1 t (ix4 (0 : Fin 1) (0 : Fin 1) k e)
      = (V c main_v13 : (⟨4, ![2, 16, 2048, 64]⟩ : Shape).Idx → EReal) (ix4 (i 0) (i 1) k e) := by
  obtain ⟨-, -, -, -, -, -, -, -, e0, e1, e2, e3, -⟩ := idx_facts1 t
  show (V c main_v13 : (⟨4, ![2, 16, 2048, 64]⟩ : Shape).Idx → EReal) (((cfg1.win 1).blk t).view.emb (ix4 (0 : Fin 1) (0 : Fin 1) k e)) = _
  refine congrArg _ (funext fun a => Fin.ext ?_)
  match a with
  | ⟨0, _⟩ => show win1_1.index t (0 : Fin 4) * 1 + 1 * 0 = (i 0).val; omega
  | ⟨1, _⟩ => show win1_1.index t (1 : Fin 4) * 1 + 1 * 0 = (i 1).val; omega
  | ⟨2, _⟩ => show win1_1.index t (2 : Fin 4) * 2048 + 1 * k.val = k.val; omega
  | ⟨3, _⟩ => show win1_1.index t (3 : Fin 4) * 64 + 1 * e.val = e.val; omega

theorem read_v (V : (c : Dev nD) → (b : Ref sig .tc) → Buf (Elt Ideal) ((c : Thread nD τ).loc b)) (c : Dev nD) (t : Fin cfg1.N)
    (i : (⟨4, ![2, 16, 2048, 64]⟩ : Shape).Idx) (k : Fin 2048) (e : Fin 64)
    (h0 : (i 0).val = win1_5.index t (0 : Fin 4)) (h1 : (i 1).val = win1_5.index t (1 : Fin 4)) :
    iblk1 (F := Ideal) V c 2 t (ix4 (0 : Fin 1) (0 : Fin 1) k e)
      = (V c main_v15 : (⟨4, ![2, 16, 2048, 64]⟩ : Shape).Idx → EReal) (ix4 (i 0) (i 1) k e) := by
  obtain ⟨-, -, -, -, -, -, -, -, -, -, -, -, e0, e1, e2, e3, -⟩ := idx_facts1 t
  show (V c main_v15 : (⟨4, ![2, 16, 2048, 64]⟩ : Shape).Idx → EReal) (((cfg1.win 2).blk t).view.emb (ix4 (0 : Fin 1) (0 : Fin 1) k e)) = _
  refine congrArg _ (funext fun a => Fin.ext ?_)
  match a with
  | ⟨0, _⟩ => show win1_2.index t (0 : Fin 4) * 1 + 1 * 0 = (i 0).val; omega
  | ⟨1, _⟩ => show win1_2.index t (1 : Fin 4) * 1 + 1 * 0 = (i 1).val; omega
  | ⟨2, _⟩ => show win1_2.index t (2 : Fin 4) * 2048 + 1 * k.val = k.val; omega
  | ⟨3, _⟩ => show win1_2.index t (3 : Fin 4) * 64 + 1 * e.val = e.val; omega

theorem read_rb (V : (c : Dev nD) → (b : Ref sig .tc) → Buf (Elt Ideal) ((c : Thread nD τ).loc b)) (c : Dev nD) (t : Fin cfg1.N)
    (i : (⟨4, ![2, 16, 2048, 64]⟩ : Shape).Idx) (p : Fin 256) (k : Fin 2048)
    (h1 : (i 1).val = win1_5.index t (1 : Fin 4)) (h2 : (i 2).val = win1_5.index t (2 : Fin 4) * 256 + p.val) :
    iblk1 (F := Ideal) V c 3 t (ix3 (0 : Fin 1) p k)
      = (V c main_v31 : (⟨3, ![16, 2048, 2048]⟩ : Shape).Idx → EReal) (ix3 (i 1) (i 2) k) := by
  obtain ⟨-, -, -, -, -, -, -, -, -, -, -, -, -, -, -, -, e0, e1, e2, -⟩ := idx_facts1 t
  show (V c main_v31 : (⟨3, ![16, 2048, 2048]⟩ : Shape).Idx → EReal) (((cfg1.win 3).blk t).view.emb (ix3 (0 : Fin 1) p k)) = _
  refine congrArg _ (funext fun a => Fin.ext ?_)
  match a with
  | ⟨0, _⟩ => show win1_3.index t (0 : Fin 3) * 1 + 1 * 0 = (i 1).val; omega
  | ⟨1, _⟩ => show win1_3.index t (1 : Fin 3) * 256 + 1 * p.val = (i 2).val; omega
  | ⟨2, _⟩ => show win1_3.index t (2 : Fin 3) * 2048 + 1 * k.val = k.val; omega

theorem read_m (V : (c : Dev nD) → (b : Ref sig .tc) → Buf (Elt Ideal) ((c : Thread nD τ).loc b)) (c : Dev nD) (t : Fin cfg1.N)
    (i : (⟨4, ![2, 16, 2048, 64]⟩ : Shape).Idx) (p : Fin 256) (k : Fin 2048)
    (h0 : (i 0).val = win1_5.index t (0 : Fin 4)) (h2 : (i 2).val = win1_5.index t (2 : Fin 4) * 256 + p.val) :
    iblk1 (F := Ideal) V c 4 t (ix3 (0 : Fin 1) p k)
      = (V c main_v32 : (⟨3, ![2, 2048, 2048]⟩ : Shape).Idx → EReal) (ix3 (i 0) (i 2) k) := by
  obtain ⟨-, -, -, -, -, -, -, -, -, -, -, -, -, -, -, -, -, -, -, e0, e1, e2⟩ := idx_facts1 t
  show (V c main_v32 : (⟨3, ![2, 2048, 2048]⟩ : Shape).Idx → EReal) (((cfg1.win 4).blk t).view.emb (ix3 (0 : Fin 1) p k)) = _
  refine congrArg _ (funext fun a => Fin.ext ?_)
  match a with
  | ⟨0, _⟩ => show win1_4.index t (0 : Fin 3) * 1 + 1 * 0 = (i 0).val; omega
  | ⟨1, _⟩ => show win1_4.index t (1 : Fin 3) * 256 + 1 * p.val = (i 2).val; omega
  | ⟨2, _⟩ => show win1_4.index t (2 : Fin 3) * 2048 + 1 * k.val = k.val; omega

/-- Point t's stored block, entry by entry, is the attention array of the region-entry arrays at the entry's place in the
    output array. -/
theorem block_eq (V : (c : Dev nD) → (b : Ref sig .tc) → Buf (Elt Ideal) ((c : Thread nD τ).loc b)) (c : Dev nD) (t : Fin cfg1.N) (j : S1x1x256x64.Idx) :
    k1_pay1 (F := Ideal) (iblk1 V c 0 t) (iblk1 V c 1 t) (iblk1 V c 2 t) (iblk1 V c 3 t) (iblk1 V c 4 t) j
      = attnArr (V c main_v11) (V c main_v13) (V c main_v15) (V c main_v31) (V c main_v32) (((cfg1.win 5).blk t).view.emb j) := by
  obtain ⟨z0, z1, p, d, rfl⟩ : ∃ (z0 z1 : Fin 1) (p : Fin 256) (d : Fin 64), j = ix4 z0 z1 p d := ⟨j 0, j 1, j 2, j 3, eq_ix4 j⟩
  obtain ⟨f0, f1, f2, f3, -⟩ := idx_facts1 t
  have hz0 := z0.isLt
  have hz1 := z1.isLt
  obtain ⟨i, hi⟩ : ∃ i : (⟨4, ![2, 16, 2048, 64]⟩ : Shape).Idx, ((cfg1.win 5).blk t).view.emb (ix4 z0 z1 p d) = i := ⟨_, rfl⟩
  have e0 : (i 0).val = win1_5.index t (0 : Fin 4) := by
    rw [← hi]; show win1_5.index t (0 : Fin 4) * 1 + 1 * z0.val = _; omega
  have e1 : (i 1).val = win1_5.index t (1 : Fin 4) := by
    rw [← hi]; show win1_5.index t (1 : Fin 4) * 1 + 1 * z1.val = _; omega
  have e2 : (i 2).val = win1_5.index t (2 : Fin 4) * 256 + p.val := by
    rw [← hi]; show win1_5.index t (2 : Fin 4) * 256 + 1 * p.val = _; omega
  have e3 : i 3 = d := by
    rw [← hi]; exact Fin.ext (by show win1_5.index t (3 : Fin 4) * 64 + 1 * d.val = d.val; omega)
  rw [hi]
  show _ = attnAt _ _ _ _ _ (i 0) (i 1) (i 2) (i 3)
  rw [e3]
  exact pay_at (iblk1 V c 0 t) (iblk1 V c 1 t) (iblk1 V c 2 t) (iblk1 V c 3 t) (iblk1 V c 4 t)
    (V c main_v11) (V c main_v13) (V c main_v15) (V c main_v31) (V c main_v32) (i 0) (i 1) (i 2) z0 z1 p d
    (fun e => read_q V c t i p e e0 e1 e2) (fun k e => read_k V c t i k e e0 e1) (fun k => read_v V c t i k d e0 e1)
    (fun k => read_rb V c t i p k e1 e2) (fun k => read_m V c t i p k e0 e2)

/-- What point t writes back is block t of the attention array. -/
theorem flushed5_eq (V : (c : Dev nD) → (b : Ref sig .tc) → Buf (Elt Ideal) ((c : Thread nD τ).loc b)) (c : Dev nD) (t : Fin cfg1.N) :
    (dat1 (F := Ideal) V c).flushed 5 t
      = ((cfg1.win 5).blk t).view.read (Elt Ideal)
          (attnArr (V c main_v11) (V c main_v13) (V c main_v15) (V c main_v31) (V c main_v32)) := by
  show (cfg1.win 5).cut (grid1.coords t) ((dat1 V c).after 5 t) = _
  rw [after1_5]
  unfold out1_5
  rw [View.canon_unit_zero zeros4]
  simp only [View.ld_unit_zero (S := S1x1x256x64) zeros4, View.ld_unit_zero (S := S1x1x2048x64) zeros4,
    View.ld_unit_zero (S := S1x256x2048) zeros3]
  funext j
  exact block_eq V c t j

/-- An index of the output array is in point t's block iff each coordinate is in the block's range on its axis. -/
theorem mem_blk5 (t : Fin cfg1.N) (i : S2x16x2048x64.Idx) :
    i ∈ ((cfg1.win 5).blk t).view.set ↔ ∀ a : Fin 4, win1_5.index t a * S1x1x256x64.size a ≤ (i a).val
      ∧ (i a).val < win1_5.index t a * S1x1x256x64.size a + S1x1x256x64.size a := by
  show i ∈ ((View.whole main_v33).slice (win1_5.rect t)).set ↔ _
  rw [View.set_slice_whole, Rect.mem_set_unit]
  exact Iff.rfl

/-- The blocks cover the output array: row r of head (b, n) is in the block of point (b·16 + n)·8 + r / 256. -/
theorem cover5 (i : S2x16x2048x64.Idx) :
    ∃ t : Fin cfg1.N, (cfg1.win 5).flush t = true ∧ i ∈ ((cfg1.win 5).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ : ∃ t : Fin cfg1.N, t.val = ((i 0).val * 16 + (i 1).val) * 8 + (i 2).val / 256 :=
    ⟨⟨((i 0).val * 16 + (i 1).val) * 8 + (i 2).val / 256, by show _ < 256; omega⟩, rfl⟩
  obtain ⟨f0, f1, f2, f3, -⟩ := idx_facts1 t
  refine ⟨t, flush1_5 t, ?_⟩
  rw [mem_blk5]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 1 ≤ (i 1).val ∧ (i 1).val < win1_5.index t (1 : Fin 4) * 1 + 1; omega
  | ⟨2, _⟩ => show win1_5.index t (2 : Fin 4) * 256 ≤ (i 2).val ∧ (i 2).val < win1_5.index t (2 : Fin 4) * 256 + 256; omega
  | ⟨3, _⟩ => show win1_5.index t (3 : Fin 4) * 64 ≤ (i 3).val ∧ (i 3).val < win1_5.index t (3 : Fin 4) * 64 + 64; omega

/-- The output array after the region: the attention array of the region-entry arrays. -/
theorem arr5_eq (V : (c : Dev nD) → (b : Ref sig .tc) → Buf (Elt Ideal) ((c : Thread nD τ).loc b)) (c : Dev nD) :
    (dat1 (F := Ideal) V c).arrAt 5 cfg1.N
      = attnArr (V c main_v11) (V c main_v13) (V c main_v15) (V c main_v31) (V c main_v32) :=
  (dat1 (F := Ideal) V c).arrAt_eq_of_cover 5 _ (fun t _ => flushed5_eq V c t) cover5

/-! ## The attention array is the reference's attention stage -/

/-- A rank-3 array as [1,b,c,d]: entry (z, q, r, t) is the array's entry (q, r, t). -/
theorem r3To1bcd_apply {α : Type} {b c d : Nat} (v : (⟨3, ![b, c, d]⟩ : Shape).Idx → α)
    (h : (⟨3, ![b, c, d]⟩ : Shape).BroadcastsInDim ⟨4, ![1, b, c, d]⟩ (![1, 2, 3] : Fin 3 → Fin 4))
    (z : Fin 1) (q : Fin b) (r : Fin c) (t : Fin d) :
    broadcastInDim (⟨4, ![1, b, c, d]⟩ : Shape) (![1, 2, 3] : Fin 3 → Fin 4) h v (ix4 z q r t) = v (ix3 q r t) := by
  refine broadcastInDim_apply (![1, 2, 3] : Fin 3 → Fin 4) h v (ix4 z q r t) (ix3 q r t) fun ax => ?_
  match ax with
  | ⟨0, _⟩ => exact Cert.Lib.Rank4Layout.keep q
  | ⟨1, _⟩ => exact Cert.Lib.Rank4Layout.keep r
  | ⟨2, _⟩ => exact Cert.Lib.Rank4Layout.keep t

/-- [1,b,c,d] along axis 0: entry (p, q, r, t) is the operand's entry (0, q, r, t). -/
theorem axis0_1bcd_apply {α : Type} {a b c d : Nat} (v : (⟨4, ![1, b, c, d]⟩ : Shape).Idx → α)
    (h : (⟨4, ![1, b, c, d]⟩ : Shape).BroadcastsInDim ⟨4, ![a, b, c, d]⟩ (![0, 1, 2, 3] : Fin 4 → Fin 4))
    (p : Fin a) (q : Fin b) (r : Fin c) (t : Fin d) :
    broadcastInDim (⟨4, ![a, b, c, d]⟩ : Shape) (![0, 1, 2, 3] : Fin 4 → Fin 4) h v (ix4 p q r t) = v (ix4 (0 : Fin 1) q r t) := by
  refine broadcastInDim_apply (![0, 1, 2, 3] : Fin 4 → Fin 4) h v (ix4 p q r t) (ix4 (0 : Fin 1) q r t) fun ax => ?_
  match ax with
  | ⟨0, _⟩ => exact Cert.Lib.Rank4Layout.unit 0 p.val
  | ⟨1, _⟩ => exact Cert.Lib.Rank4Layout.keep q
  | ⟨2, _⟩ => exact Cert.Lib.Rank4Layout.keep r
  | ⟨3, _⟩ => exact Cert.Lib.Rank4Layout.keep t

/-- The reference's logits at (b, n, r, k). -/
theorem refScores_apply (Q K : (⟨4, ![2, 16, 2048, 64]⟩ : Shape).Idx → EReal) (RB : (⟨3, ![16, 2048, 2048]⟩ : Shape).Idx → EReal)
    (b : Fin 2) (n : Fin 16) (r k : Fin 2048) :
    refScores (F := Ideal) Q K RB (ix4 b n r k) = attnLogit Q K RB b n r k := by
  unfold refScores attnLogit
  rw [addf_apply, mulf_apply, Cert.Lib.AttentionDots.hostDot_scores _ rfl rfl rfl rfl rfl rfl none Q K b n r k, Cert.Lib.Rank4Layout.scalar_apply,
    axis0_1bcd_apply, r3To1bcd_apply]
  rfl

/-- A value times a widened mask bit is the value where the bit is set and the zero word elsewhere: u · 1 = u and u · 0 = 0 at
    every extended real. -/
theorem mul_bit (u : EReal) (m : BitVec 1) :
    u * FloatOps.uitofp (F := Ideal) .f32 m = Scalar.select m u (Ideal.ofBits .f32 0x00000000#32) := by
  rcases BitVec.eq_zero_or_eq_one m with h | h <;> subst h
  · rw [select_zero, Ideal.ofBits_zero_f32]
    show u * (((0 : ℕ) : ℝ) : EReal) = 0
    rw [Nat.cast_zero, EReal.coe_zero, mul_zero]
  · rw [select_one]
    show u * (((1 : ℕ) : ℝ) : EReal) = u
    rw [Nat.cast_one, EReal.coe_one, mul_one]

/-- The attention array of Q, K, V, the bias and the widened mask is the reference's attention stage. -/
theorem attnArr_eq_ref (Q K Vv : (⟨4, ![2, 16, 2048, 64]⟩ : Shape).Idx → EReal) (RB : (⟨3, ![16, 2048, 2048]⟩ : Shape).Idx → EReal)
    (M : (⟨3, ![2, 2048, 2048]⟩ : Shape).Idx → BitVec 1) :
    attnArr Q K Vv RB (uitofp (F := Ideal) (s := ⟨3, ![2, 2048, 2048]⟩) (w := 1) .f32 M) = refAttn (F := Ideal) Q K Vv RB M := by
  funext i
  obtain ⟨b, n, r, d, rfl⟩ : ∃ (b : Fin 2) (n : Fin 16) (r : Fin 2048) (d : Fin 64), i = ix4 b n r d :=
    ⟨i 0, i 1, i 2, i 3, eq_ix4 i⟩
  show attnAt Q K Vv RB _ b n r d = _
  unfold refAttn
  refine Eq.trans ?_ (Cert.Lib.AttentionDots.hostDot_values _ rfl rfl rfl rfl rfl rfl none _ Vv b n r d).symm
  unfold attnAt
  refine Finset.sum_congr rfl fun k _ => ?_
  refine congrArg (fun u : EReal => u * Vv (ix4 b n k d)) ?_
  rw [select_apply, Cert.Lib.Rank4Layout.axis1A1cd_apply, Cert.Lib.Rank4Layout.r3ToA1cd_apply, Cert.Lib.Rank4Layout.scalar_apply]
  show _ = Scalar.select (M (ix3 b r k)) (refScores (F := Ideal) Q K RB (ix4 b n r k)
      * Ideal.div (Ideal.ofBits .f32 0x3F800000#32) (Ideal.ofBits .f32 0x3F800000#32 + Ideal.exp (-(refScores (F := Ideal) Q K RB (ix4 b n r k)))))
    (Ideal.ofBits .f32 0x00000000#32)
  rw [refScores_apply, Cert.LibLogisticTanh.exp_spelling_f32]
  exact mul_bit _ _

end Cert.Bridge.Attn

namespace Cert.Bridge

open Idealize.ShloMosaic Idealize.ShloMosaic.TcCoe Idealize.SL.Sem Cert.KernelIdeal Cert.KernelIdeal.Gen
open Attn

/-- Region 1's output array, from the region-entry arrays, is the reference's attention stage. -/
theorem region1_value
    (V : (c : Dev nD) → (b : Ref sig .tc) → Buf (Elt Ideal) ((c : Thread nD τ).loc b)) (c : Dev nD)
    (M : (⟨S2x2048x2048, .i1⟩ : BufTy).Contents (Elt Ideal))
    (h4 : (V c main_v32 : (⟨S2x2048x2048, .f32⟩ : BufTy).Contents (Elt Ideal)) = uitofp (F := Ideal) (s := S2x2048x2048) (w := 1) .f32 M) :
    ((dat1 (F := Ideal) V c).arrAt 5 cfg1.N : (⟨S2x16x2048x64, .f32⟩ : BufTy).Contents (Elt Ideal))
      = refAttn (F := Ideal) (V c main_v11) (V c main_v13) (V c main_v15) (V c main_v31) M := by
  exact (arr5_eq V c).trans
    ((congrArg (attnArr (V c main_v11) (V c main_v13) (V c main_v15) (V c main_v31)) h4).trans
      (attnArr_eq_ref (V c main_v11) (V c main_v13) (V c main_v15) (V c main_v31) M))

end Cert.Bridge

end
-- ==== Proof.LibDenseProj.lean ====
/-
  The contraction sum of a dense projection `[B,S,H] × [H,N] → [B,S,N]` (einsum `bsh,hf→bsf`), for any sizes, on
  the extended reals.  For dimension numbers that contract axis 2 of the left operand with axis 0 of the right one,
  keep the left operand's axes 0 and 1 and the right operand's axis 1, and have no batch axes, the sum over the
  contraction index of the operands' products at output index (b, s, n) is the sum over k of L (b, s, k) * R (k, n);
  with it a host dot_general read at (b, s, n) is that sum.  The dimension numbers are a record with six list
  hypotheses (closed by `rfl` on a printed record).
-/
import Idealize.ShloMosaic.PureOps.Ideal.Laws
import Idealize.ShloMosaic.Lib.ValueIdx

noncomputable section

open scoped BigOperators

namespace Cert.Lib.DenseProj

open Idealize.ShloMosaic Idealize.ShloMosaic.ValueIdx

/-- The contraction shape has one axis, of extent H; the operand indices at output index (b, s, n) and the contraction
    index whose one coordinate is k are (b, s, k) and (k, n). -/
theorem proj_idx {B S H N : Nat} (d : DotDims ⟨3, ![B, S, H]⟩ ⟨2, ![H, N]⟩ ⟨3, ![B, S, N]⟩)
    (hlc : d.lhsContracting = [2]) (hrc : d.rhsContracting = [0]) (hln : d.lhsNonContracting = [0, 1])
    (hrn : d.rhsNonContracting = [1]) (hlb : d.lhsBatch = []) (hrb : d.rhsBatch = []) :
    ∃ (hr : d.contr.rank = 1) (hs : d.contr.size ⟨0, by omega⟩ = H), ∀ (b : Fin B) (s : Fin S) (n : Fin N) (k : Fin H),
      d.lhsIdx (ix3 b s n) ((contrEquiv1 d H hr hs).symm k) = ix3 b s k ∧
      d.rhsIdx (ix3 b s n) ((contrEquiv1 d H hr hs).symm k) = ix2 k n := by
  obtain ⟨lc, rc, ln, rn, lb, rb, wf⟩ := d
  simp only at hlc hrc hln hrn hlb hrb
  subst hlc hrc hln hrn hlb hrb
  refine ⟨rfl, rfl, fun b s n k => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl

/-- THE CONTRACTION SUM at (b, s, n): the sum over k of L (b, s, k) * R (k, n). -/
theorem proj_sum {B S H N : Nat} (d : DotDims ⟨3, ![B, S, H]⟩ ⟨2, ![H, N]⟩ ⟨3, ![B, S, N]⟩)
    (hlc : d.lhsContracting = [2]) (hrc : d.rhsContracting = [0]) (hln : d.lhsNonContracting = [0, 1])
    (hrn : d.rhsNonContracting = [1]) (hlb : d.lhsBatch = []) (hrb : d.rhsBatch = [])
    (L : (⟨3, ![B, S, H]⟩ : Shape).Idx → EReal) (R : (⟨2, ![H, N]⟩ : Shape).Idx → EReal)
    (b : Fin B) (s : Fin S) (n : Fin N) :
    ∑ κ : d.contr.Idx, L (d.lhsIdx (ix3 b s n) κ) * R (d.rhsIdx (ix3 b s n) κ)
      = ∑ k : Fin H, L (ix3 b s k) * R (ix2 k n) := by
  obtain ⟨hr, hs, h⟩ := proj_idx d hlc hrc hln hrn hlb hrb
  rw [← Equiv.sum_comp (contrEquiv1 d H hr hs).symm]
  exact Finset.sum_congr rfl fun k _ => by rw [(h b s n k).1, (h b s n k).2]

/-- A host dot_general of these dimension numbers, read at (b, s, n) on the extended reals. -/
theorem dotGeneral_proj {B S H N : Nat} {φ₁ φ₂ : FTy} (d : DotDims ⟨3, ![B, S, H]⟩ ⟨2, ![H, N]⟩ ⟨3, ![B, S, N]⟩)
    (hlc : d.lhsContracting = [2]) (hrc : d.rhsContracting = [0]) (hln : d.lhsNonContracting = [0, 1])
    (hrn : d.rhsNonContracting = [1]) (hlb : d.lhsBatch = []) (hrb : d.rhsBatch = [])
    (prec : Option ContractPrecision) (sched : HostSchedule) (lhs : FVec Ideal ⟨3, ![B, S, H]⟩ φ₁)
    (rhs : FVec Ideal ⟨2, ![H, N]⟩ φ₂) (b : Fin B) (s : Fin S) (n : Fin N) :
    FloatOps.dotGeneral d prec sched lhs rhs (ix3 b s n) = ∑ k : Fin H, lhs (ix3 b s k) * rhs (ix2 k n) :=
  (Ideal.dotGeneral_apply d prec sched lhs rhs (ix3 b s n)).trans (proj_sum d hlc hrc hln hrn hlb hrb lhs rhs b s n)

/-- The same, spelled as programs print it (`Host.dotGeneral`): the form a rewrite finds. -/
theorem hostDot_proj {B S H N : Nat} {φ₁ φ₂ : FTy} (d : DotDims ⟨3, ![B, S, H]⟩ ⟨2, ![H, N]⟩ ⟨3, ![B, S, N]⟩)
    (hlc : d.lhsContracting = [2]) (hrc : d.rhsContracting = [0]) (hln : d.lhsNonContracting = [0, 1])
    (hrn : d.rhsNonContracting = [1]) (hlb : d.lhsBatch = []) (hrb : d.rhsBatch = [])
    (prec : Option ContractPrecision) (lhs : FVec Ideal ⟨3, ![B, S, H]⟩ φ₁) (rhs : FVec Ideal ⟨2, ![H, N]⟩ φ₂)
    (b : Fin B) (s : Fin S) (n : Fin N) :
    Host.dotGeneral d prec lhs rhs (ix3 b s n) = ∑ k : Fin H, lhs (ix3 b s k) * rhs (ix2 k n) :=
  dotGeneral_proj d hlc hrc hln hrn hlb hrb prec .single lhs rhs b s n

end Cert.Lib.DenseProj

end
-- ==== Proof.RegionOut.lean ====
/-
  The output projection, kernel side against reference side.

  The kernel computes, tile by tile, X · W + (row bias): the grid has 8 points; point t takes rows 512·t … 512·t + 511
  of X [4096, 1024], the whole of W [1024, 1024] and the whole bias row [1, 1024], and leaves rows 512·t … 512·t + 511
  of the output [4096, 1024].  Entry (p, q) of a tile is  Σ_k x(p, k) · w(k, q) + bias(0, q)  (a product into a zero
  accumulator, then the broadcast row added).  Hence every tile is the restriction of ONE function of the three whole
  arrays, `linOut`; the eight tiles cover the rows 0 … 4095, so the array the region leaves is `linOut`.

  The reference contracts axis 2 of G [2, 2048, 1024] with axis 0 of W and adds the bias repeated over the two leading
  axes.  Row r = 2048·b + s of the flattened G is row (b, s) of G, the narrowing to bf16 is the identity on the extended
  reals, and so both sides are  Σ_k G(b, s, k) · W(k, f) + bias(f)  entry by entry: the same sum over the same index.
-/
import proofs.«160577_j35175782154742_1_alg».proof.Proof.Gen.KernelIdeal.Frame
import proofs.«160577_j35175782154742_1_alg».proof.Proof.Stages
import proofs.«160577_j35175782154742_1_alg».proof.Proof.LibPlainDot
import proofs.«160577_j35175782154742_1_alg».proof.Proof.LibRank2Layout
import proofs.«160577_j35175782154742_1_alg».proof.Proof.LibRank4Layout
import proofs.«160577_j35175782154742_1_alg».proof.Proof.LibDenseProj
import Idealize.ShloMosaic.Lib.ValueIdx
import Idealize.ShloMosaic.Lib.Pipeline.Value
import Idealize.ShloMosaic.PureOps.Ideal.Laws

noncomputable section

open scoped BigOperators

open Idealize.ShloMosaic Idealize.ShloMosaic.TcCoe Idealize.SL.Sem Cert.KernelIdeal Cert.KernelIdeal.Gen
open Idealize.ShloMosaic.ValueIdx

namespace Cert.Bridge.Out

/-! ## The whole-array function and a tile's entry -/

/-- X · W + (row bias) on whole arrays: entry (r, q) is Σ_k X(r, k) · W(k, q) + B(0, q). -/
def linOut (X : (⟨2, ![4096, 1024]⟩ : Shape).Idx → EReal) (Wt : (⟨2, ![1024, 1024]⟩ : Shape).Idx → EReal)
    (B : (⟨2, ![1, 1024]⟩ : Shape).Idx → EReal) : (⟨2, ![4096, 1024]⟩ : Shape).Idx → EReal :=
  fun i => (∑ k : Fin 1024, X (ix2 (i 0) k) * Wt (ix2 k (i 1))) + B (ix2 (0 : Fin 1) (i 1))

/-- Entry (p, q) of the tile the body stores: the product into the zero accumulator, plus the broadcast row. -/
theorem tile_entry (x0 : FVec Ideal S512x1024 .bf16) (x1 : FVec Ideal S1024x1024 .bf16) (x2 : FVec Ideal S1x1024 .f32)
    (p : Fin 512) (q : Fin 1024) :
    k2_pay1 (F := Ideal) x0 x1 x2 (ix2 p q)
      = (∑ k : Fin 1024, x0 (ix2 p k) * x1 (ix2 k q)) + x2 (ix2 (0 : Fin 1) q) := by
  unfold k2_pay1
  refine congrArg₂ (· + ·) ?_ ?_
  · refine (matmul_zero_plain dot_S512x1024_S1024x1024_S512x1024_1_0_0_1_n_n rfl rfl rfl rfl rfl rfl none _ _ p q).trans ?_
    rw [shapeCast_self, shapeCast_self]
  · refine (Rank2.bcastRow_apply _ broadcasts_S1x1024_S512x1024 p q).trans ?_
    rw [shapeCast_self]

/-- A tile's entry is the whole-array function's entry, once the tile's operands are read off the whole arrays:
    row p of the X tile is row r of X, and the W and bias tiles are the whole of W and of the bias row. -/
theorem tile_is_block (x0 : FVec Ideal S512x1024 .bf16) (x1 : FVec Ideal S1024x1024 .bf16) (x2 : FVec Ideal S1x1024 .f32)
    (X : (⟨2, ![4096, 1024]⟩ : Shape).Idx → EReal) (Wt : (⟨2, ![1024, 1024]⟩ : Shape).Idx → EReal)
    (B : (⟨2, ![1, 1024]⟩ : Shape).Idx → EReal)
    (y : S512x1024.Idx) (i : S4096x1024.Idx) (p : Fin 512) (q : Fin 1024) (r : Fin 4096)
    (hy : y = ix2 p q) (hi : i = ix2 r q)
    (h0 : ∀ k : Fin 1024, x0 (ix2 p k) = X (ix2 r k)) (h1 : x1 = Wt) (h2 : x2 = B) :
    k2_pay1 (F := Ideal) x0 x1 x2 y = linOut X Wt B i := by
  subst hy hi h1 h2
  refine (tile_entry x0 x1 x2 p q).trans ?_
  show _ = (∑ k : Fin 1024, X (ix2 r k) * x1 (ix2 k q)) + x2 (ix2 (0 : Fin 1) q)
  exact congrArg₂ (· + ·) (Finset.sum_congr rfl fun k _ => by rw [h0 k]) rfl

/-! ## From tiles to the array -/

theorem zero_offsets : (![0, 0] : Fin 2 → Nat) = fun _ => 0 := funext fun a => by fin_cases a <;> rfl

/-- The index maps over the grid (8, 1): the X tile moves with the output tile along the rows and sits at column
    block 0; the W tile and the bias tile are always block (0, 0); the output tile is (t, 0), t ≤ 7. -/
theorem tile_index : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every row block 0 … 7 is some point's output tile. -/
theorem tile_onto : ∀ q0 : Fin 8, ∃ t : Fin cfg2.N, win2_3.index t = ![q0.val, 0] :=
  (by decide +kernel : ∀ q0 : Fin 8, ∃ t : Fin grid2.N, win2_3.index t = ![q0.val, 0])

set_option maxHeartbeats 400000 in
/-- What point t writes back is tile t of `linOut` of the three arrays as the region finds them. -/
theorem tile_flushed (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal) (linOut (V c main_v38) (V c main_v39) (V c main_v40)) := by
  show (cfg2.win 3).cut (grid2.coords t) ((dat2 (F := Ideal) V c).after 3 t) = _
  rw [after2_3]
  unfold out2_3
  rw [View.canon_unit_zero zero_offsets]
  simp only [View.ld_unit_zero (S := S512x1024) zero_offsets, View.ld_unit_zero (S := S1024x1024) zero_offsets,
    View.ld_unit_zero (S := S1x1024) zero_offsets]
  obtain ⟨e0, e1, e2, e3, e4, e5, e6, e7⟩ := tile_index t
  funext j
  have hp : (j 0).val < 512 := (j 0).isLt
  have hq : (j 1).val < 1024 := (j 1).isLt
  refine tile_is_block (iblk2 V c 0 t) (iblk2 V c 1 t) (iblk2 V c 2 t) (V c main_v38) (V c main_v39) (V c main_v40)
    _ _ ⟨(j 0).val, hp⟩ ⟨(j 1).val, hq⟩ ⟨win2_3.index t (0 : Fin 2) * 512 + (j 0).val, by omega⟩ ?_ ?_ ?_ ?_ ?_
  · funext a
    match a with
    | ⟨0, _⟩ => exact Fin.ext rfl
    | ⟨1, _⟩ => exact Fin.ext rfl
  · funext a
    apply Fin.ext
    match a with
    | ⟨0, _⟩ => show win2_3.index t (0 : Fin 2) * 512 + 1 * (j 0).val = win2_3.index t (0 : Fin 2) * 512 + (j 0).val; omega
    | ⟨1, _⟩ => show win2_3.index t (1 : Fin 2) * 1024 + 1 * (j 1).val = (j 1).val; omega
  · intro k
    show V c main_v38 (((cfg2.win 0).blk t).view.emb (ix2 (⟨(j 0).val, hp⟩ : Fin 512) k)) = V c main_v38 _
    refine congrArg (V c main_v38) (funext fun a => Fin.ext ?_)
    match a with
    | ⟨0, _⟩ => show win2_0.index t (0 : Fin 2) * 512 + 1 * (j 0).val = win2_3.index t (0 : Fin 2) * 512 + (j 0).val; omega
    | ⟨1, _⟩ => show win2_0.index t (1 : Fin 2) * 1024 + 1 * k.val = k.val; omega
  · funext y
    show V c main_v39 (((cfg2.win 1).blk t).view.emb y) = V c main_v39 y
    refine congrArg (V c main_v39) (funext fun a => Fin.ext ?_)
    match a with
    | ⟨0, _⟩ => show win2_1.index t (0 : Fin 2) * 1024 + 1 * (y 0).val = (y 0).val; omega
    | ⟨1, _⟩ => show win2_1.index t (1 : Fin 2) * 1024 + 1 * (y 1).val = (y 1).val; omega
  · funext y
    show V c main_v40 (((cfg2.win 2).blk t).view.emb y) = V c main_v40 y
    refine congrArg (V c main_v40) (funext fun a => Fin.ext ?_)
    match a with
    | ⟨0, _⟩ => show win2_2.index t (0 : Fin 2) * 1 + 1 * (y 0).val = (y 0).val; omega
    | ⟨1, _⟩ => show win2_2.index t (1 : Fin 2) * 1024 + 1 * (y 1).val = (y 1).val; omega

/-- An index of the array is in point t's tile iff each coordinate is in the tile's range on its axis. -/
theorem tile_mem (t : Fin cfg2.N) (i : S4096x1024.Idx) :
    i ∈ ((cfg2.win 3).blk t).view.set ↔
      ∀ a : Fin 2, win2_3.index t a * S512x1024.size a ≤ (i a).val
        ∧ (i a).val < win2_3.index t a * S512x1024.size a + S512x1024.size a := by
  show i ∈ ((View.whole main_v41).slice (win2_3.rect t)).set ↔ _
  rw [View.set_slice_whole, Rect.mem_set_unit]
  exact Iff.rfl

/-- The tiles cover the array: row r is in the tile of the point whose row block is r / 512. -/
theorem tile_cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := tile_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [tile_mem]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 1024 ≤ (i 1).val ∧ (i 1).val < win2_3.index t (1 : Fin 2) * 1024 + 1024
    omega

/-- The array the region leaves is `linOut` of the three arrays as the region finds them. -/
theorem region2_array (V : (c : Dev nD) → (b : Ref sig .tc) → Buf (Elt Ideal) ((c : Thread nD τ).loc b)) (c : Dev nD) :
    (dat2 (F := Ideal) V c).arrAt 3 cfg2.N = linOut (V c main_v38) (V c main_v39) (V c main_v40) :=
  (dat2 (F := Ideal) V c).arrAt_eq_of_cover 3 (linOut (V c main_v38) (V c main_v39) (V c main_v40))
    (fun t _ => tile_flushed V c t) tile_cover

/-! ## The reference's contraction at an index -/

/-- The reference's output projection at (b, s, f): Σ_k G(b, s, k) · W(k, f) + bias(f). -/
theorem refOut_apply (G : (⟨Cert.ReferenceIdeal.S2x2048x1024, .f32⟩ : BufTy).Contents (Elt Ideal))
    (W : (⟨Cert.ReferenceIdeal.S1024x1024, .f32⟩ : BufTy).Contents (Elt Ideal))
    (b : (⟨Cert.ReferenceIdeal.S1024, .f32⟩ : BufTy).Contents (Elt Ideal)) (bb : Fin 2) (s : Fin 2048) (f : Fin 1024) :
    refOut (F := Ideal) G W b (ix3 bb s f) = (∑ k : Fin 1024, G (ix3 bb s k) * W (ix2 k f)) + b (ix1 f) := by
  unfold refOut
  refine congrArg₂ (· + ·) ?_ ?_
  · exact Cert.Lib.DenseProj.hostDot_proj Cert.ReferenceIdeal.dot_S2x2048x1024_S1024x1024_S2x2048x1024_2_0_01_1_n_n rfl rfl rfl rfl rfl rfl
      none G W bb s f
  · refine (Cert.Lib.Rank4Layout.lead11n_apply _ _ bb s f).trans ?_
    exact Cert.Lib.Rank4Layout.vecTo11n_apply b _ 0 0 f

/-! ## The two sides, entry by entry -/

/-- `linOut` at (r, q), spelled out. -/
theorem linOut_apply (X : (⟨2, ![4096, 1024]⟩ : Shape).Idx → EReal) (Wt : (⟨2, ![1024, 1024]⟩ : Shape).Idx → EReal)
    (B : (⟨2, ![1, 1024]⟩ : Shape).Idx → EReal) (r : Fin 4096) (q : Fin 1024) :
    linOut X Wt B (ix2 r q) = (∑ k : Fin 1024, X (ix2 r k) * Wt (ix2 k q)) + B (ix2 (0 : Fin 1) q) := rfl

end Cert.Bridge.Out

namespace Cert.Bridge

open Out

theorem region2_value
    (V : (c : Dev nD) → (b : Ref sig .tc) → Buf (Elt Ideal) ((c : Thread nD τ).loc b)) (c : Dev nD)
    (G : (⟨S2x2048x1024, .f32⟩ : BufTy).Contents (Elt Ideal)) (W : (⟨S1024x1024, .f32⟩ : BufTy).Contents (Elt Ideal))
    (b : (⟨S1024, .f32⟩ : BufTy).Contents (Elt Ideal))
    (h1 : (V c main_v38 : (⟨S4096x1024, .bf16⟩ : BufTy).Contents (Elt Ideal)) = truncf (F := Ideal) (s := S4096x1024) (φ := .f32) .bf16 (shapeCast S4096x1024 G shapeCasts_S2x2048x1024_S4096x1024) bitsLt_bf16_f32)
    (h2 : (V c main_v39 : (⟨S1024x1024, .bf16⟩ : BufTy).Contents (Elt Ideal)) = truncf (F := Ideal) (s := S1024x1024) (φ := .f32) .bf16 W bitsLt_bf16_f32)
    (h3 : (V c main_v40 : (⟨S1x1024, .f32⟩ : BufTy).Contents (Elt Ideal)) = shapeCast S1x1024 b shapeCasts_S1024_S1x1024) :
    shapeCast S2x2048x1024 ((dat2 (F := Ideal) V c).arrAt 3 cfg2.N : (⟨S4096x1024, .f32⟩ : BufTy).Contents (Elt Ideal)) shapeCasts_S4096x1024_S2x2048x1024
      = refOut (F := Ideal) G W b := by
  refine (congrArg (fun A => shapeCast S2x2048x1024 A shapeCasts_S4096x1024_S2x2048x1024) (region2_array V c)).trans ?_
  funext i
  obtain ⟨bb, s, f, rfl⟩ : ∃ (bb : Fin 2) (s : Fin 2048) (f : Fin 1024), i = ix3 bb s f := ⟨i 0, i 1, i 2, eq_ix3 i⟩
  -- row r = 2048·bb + s of the flattened arrays is row (bb, s)
  obtain ⟨r, hr⟩ : ∃ r : Fin 4096, r.val = bb.val * 2048 + s.val :=
    ⟨⟨bb.val * 2048 + s.val, by have := bb.isLt; have := s.isLt; omega⟩, rfl⟩
  refine (Cert.Lib.Rank4Layout.splitFirst_apply _ shapeCasts_S4096x1024_S2x2048x1024 bb s f r hr).trans ?_
  refine ((linOut_apply (V c main_v38) (V c main_v39) (V c main_v40) r f).trans ?_).trans (refOut_apply G W b bb s f).symm
  have hX : ∀ k : Fin 1024,
      (V c main_v38 : (⟨S4096x1024, .bf16⟩ : BufTy).Contents (Elt Ideal)) (ix2 r k) = G (ix3 bb s k) := fun k => by
    rw [h1]
    exact Cert.Lib.Rank4Layout.mergeFirst_apply G shapeCasts_S2x2048x1024_S4096x1024 r k bb s hr
  have hW : ∀ k : Fin 1024,
      (V c main_v39 : (⟨S1024x1024, .bf16⟩ : BufTy).Contents (Elt Ideal)) (ix2 k f) = W (ix2 k f) := fun k => by
    rw [h2]; rfl
  have hB : (V c main_v40 : (⟨S1x1024, .f32⟩ : BufTy).Contents (Elt Ideal)) (ix2 (0 : Fin 1) f) = b (ix1 f) := by
    rw [h3]
    refine shapeCast_apply b shapeCasts_S1024_S1x1024 (ix2 (0 : Fin 1) f) (ix1 f) ?_
    rw [Shape.rowMajor_val_one, Shape.rowMajor_val_two]
    show f.val = 0 * 1024 + f.val
    omega
  exact congrArg₂ (fun x y : EReal => x + y)
    (Finset.sum_congr rfl fun k _ => congrArg₂ (fun x y : EReal => x * y) (hX k) (hW k)) hB

end Cert.Bridge

end
-- ==== Proof.lean ====
/-
  An HSTU block — silu-gated attention with a learned relative-position bias between two dense projections —
  as three tiled TPU kernels with re-layouts between them, against a plain array-level reference, compared on
  the extended reals (every float an exact extended real, every operation exact, a change of float format the
  identity).

  With A = silu(x·W1 + b1) split by columns into the gate U and the heads Q, K, V, the result is
      ( ( where(mask, silu((Q·Kᵀ)·(1/8) + B), 0) · V ) re-laid ⊙ U ) · W2 + b2,
  B the bias table gathered at position q − k + 2047 per head.  The kernel program computes A tile by tile
  (region 0), the attention output per (batch, head, 256-row query tile) with the mask as a 0/1 factor
  (region 1), and the last projection tile by tile (region 2); the reference computes the same three stages as
  whole-array contractions.  Both sides form the same finite sums over the same contraction indices, so no law
  beyond commutative-monoid sums is needed for the contractions; the two pointwise differences are
    * silu spelled z · logistic z in the kernels and z · (1/(1 + e^(−z))) in the reference: one function of every
      extended real, infinities included;
    * the mask applied as a product with 0 or 1 in the kernel and as a selection against 0 in the reference:
      u · 0 = 0 and u · 1 = u for every extended real u.
  Neither needs finiteness, so the precondition is never opened.

  Modules: `Stages` names the reference's attention stage and output projection as functions of their immediate
  operands; `RegionAct`, `RegionAttn`, `RegionOut` show each kernel region's output array is the reference's
  corresponding stage of the region's input arrays (payload at an index, blocks to the array, the two
  contractions matched term by term); `KernelRun` is the kernel program's run with its result named; `Glue` reads
  every intermediate array of the kernel program off the chain of buffer contents at the segment boundaries as
  a stage of the reference; `Algebraic` assembles the five claims.
-/
import proofs.«160577_j35175782154742_1_alg».proof.Defs
import proofs.«160577_j35175782154742_1_alg».proof.Proof.Gen.Kernel
import proofs.«160577_j35175782154742_1_alg».proof.Proof.Gen.Kernel.Skeleton
import proofs.«160577_j35175782154742_1_alg».proof.Proof.Gen.Kernel.Launch
import proofs.«160577_j35175782154742_1_alg».proof.Proof.Gen.Kernel.Points
import proofs.«160577_j35175782154742_1_alg».proof.Proof.Gen.Kernel.Frame
import proofs.«160577_j35175782154742_1_alg».proof.Proof.Gen.KernelIdeal
import proofs.«160577_j35175782154742_1_alg».proof.Proof.Gen.KernelIdeal.Skeleton
import proofs.«160577_j35175782154742_1_alg».proof.Proof.Gen.KernelIdeal.Launch
import proofs.«160577_j35175782154742_1_alg».proof.Proof.Gen.KernelIdeal.Points
import proofs.«160577_j35175782154742_1_alg».proof.Proof.Gen.KernelIdeal.Frame
import proofs.«160577_j35175782154742_1_alg».proof.Proof.Gen.ReferenceIdeal
import proofs.«160577_j35175782154742_1_alg».proof.Proof.Gen.ReferenceIdeal.Run
import proofs.«160577_j35175782154742_1_alg».proof.Proof.Gen.ReferenceIdeal.Read
import proofs.«160577_j35175782154742_1_alg».proof.Proof.Gen.Pre_finite_inputs
import proofs.«160577_j35175782154742_1_alg».proof.Proof.Algebraic
import proofs.«160577_j35175782154742_1_alg».proof.Proof.RegionAct
import proofs.«160577_j35175782154742_1_alg».proof.Proof.RegionAttn
import proofs.«160577_j35175782154742_1_alg».proof.Proof.RegionOut
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves,
    Claims.algebraic
      (fun V c x W b h1 h2 h3 => Cert.Bridge.region0_value V c x W b h1 h2 h3)
      (fun V c M h4 => Cert.Bridge.region1_value V c M h4)
      (fun V c G W b h1 h2 h3 => Cert.Bridge.region2_value V c G W b h1 h2 h3)⟩

end Cert.Proof

end
